-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S1x2048 .f32) (main_arg15 : FVec F S1x2048 .f32) (main_arg16 : FVec F S1x2048 .f32) (main_v63 : IVec S_ 1) (main_v67 : IVec S_ 1) : IVec S_ 1 :=
  let main_v68 : IVec S_ 1 := andi main_v63 main_v67
  let main_v69 : FVec F S1x2048 .f32 := Host.absf main_arg14
  let main_cst_26 : FVec F S_ .f32 := constant S_ .f32 0x7F800000#32
  let main_v70 : FVec F S1x2048 .f32 := broadcastInDim S1x2048 ![] bcast_S_S1x2048 main_cst_26
  let main_v71 : IVec S1x2048 1 := cmpf .olt main_v69 main_v70
  let main_c_27 : IVec S_ 1 := constantI S_ 1 1#1
  let main_v72 : IVec S_ 1 := (fun x v => Host.reduce IntOp.andi x v reducesTo_S1x2048_S_d0_1 h_S_) main_v71 main_c_27
  let main_v73 : IVec S_ 1 := andi main_v68 main_v72
  let main_v74 : FVec F S1x2048 .f32 := Host.absf main_arg15
  let main_cst_28 : FVec F S_ .f32 := constant S_ .f32 0x7F800000#32
  let main_v75 : FVec F S1x2048 .f32 := broadcastInDim S1x2048 ![] bcast_S_S1x2048 main_cst_28
  let main_v76 : IVec S1x2048 1 := cmpf .olt main_v74 main_v75
  let main_c_29 : IVec S_ 1 := constantI S_ 1 1#1
  let main_v77 : IVec S_ 1 := (fun x v => Host.reduce IntOp.andi x v reducesTo_S1x2048_S_d0_1 h_S_) main_v76 main_c_29
  let main_v78 : IVec S_ 1 := andi main_v73 main_v77
  let main_v79 : FVec F S1x2048 .f32 := Host.absf main_arg16
  let main_cst_30 : FVec F S_ .f32 := constant S_ .f32 0x7F800000#32
  let main_v80 : FVec F S1x2048 .f32 := broadcastInDim S1x2048 ![] bcast_S_S1x2048 main_cst_30
  let main_v81 : IVec S1x2048 1 := cmpf .olt main_v79 main_v80
  let main_c_31 : IVec S_ 1 := constantI S_ 1 1#1
  let main_v82 : IVec S_ 1 := (fun x v => Host.reduce IntOp.andi x v reducesTo_S1x2048_S_d0_1 h_S_) main_v81 main_c_31
  let main_v83 : IVec S_ 1 := andi main_v78 main_v82
  main_v83

def fn_part3 {F : FTy → Type} [FloatOps F] (main_arg11 : FVec F S2048 .f32) (main_arg12 : FVec F S2048x2048 .f32) (main_arg13 : FVec F S2048 .f32) (main_arg14 : FVec F S1x2048 .f32) (main_arg15 : FVec F S1x2048 .f32) (main_arg16 : FVec F S1x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_v63 main_v67

def fn_part2 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S1x2048 .f32) (main_arg15 : FVec F S1x2048 .f32) (main_arg16 : FVec F S1x2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_v48 main_v49 main_v50

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S1x2048 .f32) (main_arg15 : FVec F S1x2048 .f32) (main_arg16 : FVec F S1x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x2048 .f32) (main_arg1 : FVec F S1x2048 .f32) (main_arg2 : FVec F S2048x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S1x2048 .f32) (main_arg15 : FVec F S1x2048 .f32) (main_arg16 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S256x2048 : Shape := ⟨2, ![256, 2048]⟩
abbrev S1x256 : Shape := ⟨2, ![1, 256]⟩
abbrev S512x256 : Shape := ⟨2, ![512, 256]⟩

abbrev nBuf : Space → Nat
  | .hbm => 41
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S2048x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S2048x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S4096x2048, .bf16⟩
  | .hbm, ⟨36, _⟩ => ⟨S2048x2048, .bf16⟩
  | .hbm, ⟨37, _⟩ => ⟨S2048x2048, .bf16⟩
  | .hbm, ⟨38, _⟩ => ⟨S2048x2048, .bf16⟩
  | .hbm, ⟨39, _⟩ => ⟨S2048x2048, .bf16⟩
  | .hbm, ⟨40, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x2048, .f32⟩
  | .local _ .vmem, ⟨15, _⟩ => ⟨S1x256, .f32⟩
  | .local _ .vmem, ⟨16, _⟩ => ⟨S1x256, .f32⟩
  | .local _ .vmem, ⟨17, _⟩ => ⟨S512x256, .f32⟩
  | .local _ .vmem, ⟨18, _⟩ => ⟨S512x256, .f32⟩
  | .local _ .vmem, ⟨19, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S2048_S1x2048 : S2048.ShapeCasts S1x2048
  transposes_S2048x2048_S2048x2048_1_0 : S2048x2048.Transposes [1, 0] S2048x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S1x2048_S2048x2048_S1x2048_1_0_0_1_n_n_wf : DotDims.WF S1x2048 S2048x2048 S1x2048 [1] [0] [0] [1] [] []
  dot_S512x2048_S2048x2048_S512x2048_1_1_0_0_n_n_wf : DotDims.WF S512x2048 S2048x2048 S512x2048 [1] [1] [0] [0] [] []
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x2048.size a
  hwx0_9 : ∀ i : grid0.Coords, EltTy.bits .f32 = 32 ∨ (Rect.block (s := S1x2048) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S4096x2048.size a
  hwx0_10 : ∀ i : grid0.Coords, EltTy.bits .f32 = 32 ∨ (Rect.block (s := S4096x2048) S512x256.size (cc0_transform_10 i) (hinb0_10 i)).WholeWords (EltTy.packing .f32)

variable [Facts₀]

def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v18) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v23) S512x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S2048x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S2048x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S2048x2048, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S2048x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S2048x2048, .f32⟩
  | .hbm, ⟨62, _⟩ => ⟨S4096x2048, .f32⟩
  | .hbm, ⟨63, _⟩ => ⟨S1x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S2048x2048, .f32⟩
  | .hbm, ⟨69, _⟩ => ⟨S4096x2048, .f32⟩
  | .hbm, ⟨70, _⟩ => ⟨S4096x2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_1 : Ref sig .tc := ⟨.hbm, 55, rfl⟩
abbrev main_v36 : Ref sig .tc := ⟨.hbm, 56, rfl⟩
abbrev main_v37 : Ref sig .tc := ⟨.hbm, 57, rfl⟩
abbrev main_cst_2 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_3 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []
  dot_S1x2048_S2048x2048_S1x2048_1_0_0_1_n_n_wf : DotDims.WF S1x2048 S2048x2048 S1x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf

class Facts : Prop extends Facts₀ where

variable [Facts]
-- ==== Proof.GruSpec.lean ====
/-
  The GRU cell of one time step, as a function of its seventeen argument arrays, written twice.

  With x of shape [4096, 2048], the state row h of shape [1, 2048], six weight matrices of shape
  [2048, 2048] (rows indexed by the output feature), six bias vectors of length 2048 and three
  bias rows of shape [1, 2048], the cell is, at row b and feature o,

      z  = σ(x·Wzᵀ + h·Uzᵀ + bwz + buz + b_z)          r = σ(x·Wrᵀ + h·Urᵀ + bwr + bur + b_r)
      ĥ  = tanh(x·Whᵀ + (r ⊙ h)·Uhᵀ + bwh + buh + b_h)
      out = (1 − z) · h + z · ĥ

  on the extended reals, σ(v) = 1 / (1 + e^(−v)).  The two arrangements below differ only in the
  order and grouping in which the summands of each pre-activation are added, and in σ being
  written as one function or as its quotient.  Addition on the extended reals is a commutative
  monoid, so the two are one function; no finiteness of any entry is used.
-/
import Idealize.ShloMosaic.PureOps.Ideal
import Idealize.ShloMosaic.Lib.ValueIdx

noncomputable section

namespace Cert.GruSpec

open Idealize.ShloMosaic Idealize.ShloMosaic.ValueIdx

/-- A matrix of extended reals over a literal shape. -/
abbrev Mat (a b : Nat) : Type := (⟨2, ![a, b]⟩ : Shape).Idx → EReal
/-- A vector of extended reals over a literal shape. -/
abbrev Vc (a : Nat) : Type := (⟨1, ![a]⟩ : Shape).Idx → EReal

/-- The f32 word of 1.0 read on the extended reals (the same word stands in both programs). -/
abbrev one : EReal := Ideal.ofBits .f32 0x3F800000#32

/-- Row a of A against row b of B: the entry (a, b) of A·Bᵀ. -/
def dotRows {M N K : Nat} (A : Mat M K) (B : Mat N K) (a : Fin M) (b : Fin N) : EReal :=
  ∑ k : Fin K, A (ix2 a k) * B (ix2 b k)

/-- The logistic function written as its quotient over the word of 1.0. -/
def sigQ (v : EReal) : EReal := Ideal.div one (one + Ideal.exp (-v))

variable (x : Mat 4096 2048) (h : Mat 1 2048)
  (Wz : Mat 2048 2048) (bwz : Vc 2048) (Uz : Mat 2048 2048) (buz : Vc 2048)
  (Wr : Mat 2048 2048) (bwr : Vc 2048) (Ur : Mat 2048 2048) (bur : Vc 2048)
  (Wh : Mat 2048 2048) (bwh : Vc 2048) (Uh : Mat 2048 2048) (buh : Vc 2048)
  (bz br bh : Mat 1 2048)

/-! ## First arrangement: the state's contribution and the biases summed into one row first -/

/-- The row added to x·Wᵀ in a gate: h·Uᵀ + bw + bu + b, added in that order. -/
def gateRow (U : Mat 2048 2048) (bw bu : Vc 2048) (bb : Mat 1 2048) (o : Fin 2048) : EReal :=
  ((dotRows h U 0 o + bw (ix1 o)) + bu (ix1 o)) + bb (ix2 0 o)

/-- The candidate's bias row: bwh + buh + b_h. -/
def candRow (o : Fin 2048) : EReal := (bwh (ix1 o) + buh (ix1 o)) + bh (ix2 0 o)

/-- A gate: σ(x·Wᵀ + row). -/
def gateK (W U : Mat 2048 2048) (bw bu : Vc 2048) (bb : Mat 1 2048) (b : Fin 4096) (o : Fin 2048) : EReal :=
  Ideal.logistic (dotRows x W b o + gateRow h U bw bu bb o)

/-- The candidate state: tanh((x·Whᵀ + (r ⊙ h)·Uhᵀ) + row). -/
def candK (b : Fin 4096) (o : Fin 2048) : EReal :=
  Ideal.tanh ((dotRows x Wh b o + ∑ k : Fin 2048, (gateK x h Wr Ur bwr bur br b k * h (ix2 0 k)) * Uh (ix2 o k))
    + candRow bwh buh bh o)

/-- The cell at row b and feature o, first arrangement. -/
def cellKAt (b : Fin 4096) (o : Fin 2048) : EReal :=
  (one - gateK x h Wz Uz bwz buz bz b o) * h (ix2 0 o)
    + gateK x h Wz Uz bwz buz bz b o * candK x h Wr bwr Ur bur Wh bwh Uh buh br bh b o

/-- The cell as an array, first arrangement. -/
def cellK : Mat 4096 2048 := fun j =>
  cellKAt x h Wz bwz Uz buz Wr bwr Ur bur Wh bwh Uh buh bz br bh (j 0) (j 1)

/-! ## Second arrangement: every summand added to x·Wᵀ one after the other -/

/-- A gate: σ written as its quotient, of (((x·Wᵀ + bw) + h·Uᵀ) + bu) + b. -/
def gateR (W U : Mat 2048 2048) (bw bu : Vc 2048) (bb : Mat 1 2048) (b : Fin 4096) (o : Fin 2048) : EReal :=
  sigQ ((((dotRows x W b o + bw (ix1 o)) + dotRows h U 0 o) + bu (ix1 o)) + bb (ix2 0 o))

/-- The candidate state: tanh((((x·Whᵀ + bwh) + (r ⊙ h)·Uhᵀ) + buh) + b_h). -/
def candR (b : Fin 4096) (o : Fin 2048) : EReal :=
  Ideal.tanh ((((dotRows x Wh b o + bwh (ix1 o))
      + ∑ k : Fin 2048, (gateR x h Wr Ur bwr bur br b k * h (ix2 0 k)) * Uh (ix2 o k)) + buh (ix1 o)) + bh (ix2 0 o))

/-- The cell at row b and feature o, second arrangement. -/
def cellRAt (b : Fin 4096) (o : Fin 2048) : EReal :=
  (one - gateR x h Wz Uz bwz buz bz b o) * h (ix2 0 o)
    + gateR x h Wz Uz bwz buz bz b o * candR x h Wr bwr Ur bur Wh bwh Uh buh br bh b o

/-- The cell as an array, second arrangement. -/
def cellR : Mat 4096 2048 := fun j =>
  cellRAt x h Wz bwz Uz buz Wr bwr Ur bur Wh bwh Uh buh bz br bh (j 0) (j 1)

/-! ## The two arrangements are one function -/

/-- The word 0x3F800000 is the real number 1. -/
theorem one_eq : one = (1 : EReal) := by
  simp [one, Ideal.ofBits, Ideal.ieee]
  rw [← EReal.coe_mul, ← EReal.coe_one]
  congr 1
  norm_num

/-- σ as a quotient over the word of 1.0 is the logistic function. -/
theorem sigQ_eq (v : EReal) : sigQ v = Ideal.logistic v := by
  unfold sigQ Ideal.logistic; rw [one_eq]

/-- A gate's pre-activation: the same five summands in either order. -/
theorem gate_eq (W U : Mat 2048 2048) (bw bu : Vc 2048) (bb : Mat 1 2048) (b : Fin 4096) (o : Fin 2048) :
    gateR x h W U bw bu bb b o = gateK x h W U bw bu bb b o := by
  unfold gateR gateK gateRow; rw [sigQ_eq]; congr 1; ac_rfl

theorem cand_eq (b : Fin 4096) (o : Fin 2048) :
    candR x h Wr bwr Ur bur Wh bwh Uh buh br bh b o = candK x h Wr bwr Ur bur Wh bwh Uh buh br bh b o := by
  unfold candR candK candRow
  simp only [gate_eq]
  congr 1; ac_rfl

/-- The cell's two arrangements agree at row b and feature o. -/
theorem cellRAt_eq (b : Fin 4096) (o : Fin 2048) :
    cellRAt x h Wz bwz Uz buz Wr bwr Ur bur Wh bwh Uh buh bz br bh b o
      = cellKAt x h Wz bwz Uz buz Wr bwr Ur bur Wh bwh Uh buh bz br bh b o := by
  unfold cellRAt cellKAt
  rw [gate_eq, cand_eq]

/-- The cell's two arrangements agree as arrays. -/
theorem cellR_eq_cellK :
    cellR x h Wz bwz Uz buz Wr bwr Ur bur Wh bwh Uh buh bz br bh
      = cellK x h Wz bwz Uz buz Wr bwr Ur bur Wh bwh Uh buh bz br bh := by
  funext j
  exact cellRAt_eq x h Wz bwz Uz buz Wr bwr Ur bur Wh bwh Uh buh bz br bh (j 0) (j 1)

end Cert.GruSpec

end
-- ==== Proof.RefCell.lean ====
/-
  The reference program's result, read index by index on the extended reals, is the GRU cell in
  the arrangement that adds every summand to x·Wᵀ one after the other.

  The program is sixty-two array operations.  Each weight is transposed and then contracted
  against the last axis of its left operand, so entry (b, o) of such a product is the sum over k
  of (left operand)(b, k) · W(o, k): a row of the left operand against a row of W.  A bias
  vector is first laid out as a 1 × 2048 row and then repeated down the 4096 rows; a bias row,
  the state row h and the row h·Uᵀ are repeated down the rows directly; the constant 1.0 is
  repeated to every entry.  Everything else acts entry by entry.  So the entry (b, o) of each
  stage is a function of entries of the arguments, and reading the stages in order gives the
  gates, the candidate state and the blend of the cell.
-/
import proofs.«151567_j5050881540410_2_alg».proof.Defs
import proofs.«151567_j5050881540410_2_alg».proof.Proof.Gen.Pre_finite_inputs
import proofs.«151567_j5050881540410_2_alg».proof.Proof.Gen.ReferenceIdeal.Read
import proofs.«151567_j5050881540410_2_alg».proof.Proof.GruSpec

noncomputable section

namespace Cert.ReferenceIdeal.RefValue

open Cert.ReferenceIdeal Cert.ReferenceIdeal.Gen Cert.ReferenceIdeal.Read Idealize.ShloMosaic
  Idealize.ShloMosaic.ValueIdx Idealize.ShloMosaic.TcCoe Idealize.SL.Sem Cert.GruSpec

/-- The 4096 × 2048 arrays (x, and every full-size stage). -/
abbrev XMat : Type := FVec Ideal S4096x2048 .f32
/-- The 2048 × 2048 weights. -/
abbrev WMat : Type := FVec Ideal S2048x2048 .f32
/-- The 1 × 2048 rows (the state h and the three bias rows). -/
abbrev Row : Type := FVec Ideal S1x2048 .f32
/-- The bias vectors of length 2048. -/
abbrev Bias : Type := FVec Ideal S2048 .f32

/-! ## The layout stages at an entry -/

/-- x·Wᵀ at (b, o) is row b of x against row o of W. -/
theorem xW_at (x : XMat) (W : WMat) (b : Fin 4096) (o : Fin 2048) :
    val_main_v1 (F := Ideal) x W (ix2 b o) = dotRows x W b o := by
  rw [val_main_v1_apply]
  unfold dotRows
  refine Finset.sum_congr rfl fun k _ => ?_
  rw [val_main_v0_apply]
  have e1 : lidx_main_v1 (ix2 b o) k = ix2 b k :=
    funext fun a => Fin.ext (by match a with | ⟨0, _⟩ => rfl | ⟨1, _⟩ => rfl)
  have e2 : idx_main_v0 (ridx_main_v1 (ix2 b o) k) = ix2 o k :=
    funext fun a => Fin.ext (by match a with | ⟨0, _⟩ => rfl | ⟨1, _⟩ => rfl)
  rw [e1, e2]

/-- h·Uᵀ at (0, o) is the row h against row o of U. -/
theorem hU_at (h : Row) (U : WMat) (a : Fin 1) (o : Fin 2048) :
    val_main_v6 (F := Ideal) h U (ix2 a o) = dotRows h U 0 o := by
  rw [val_main_v6_apply]
  unfold dotRows
  refine Finset.sum_congr rfl fun k _ => ?_
  rw [val_main_v5_apply]
  have e1 : lidx_main_v6 (ix2 a o) k = ix2 0 k :=
    funext fun d => Fin.ext (by match d with | ⟨0, _⟩ => exact Fin.val_eq_zero a | ⟨1, _⟩ => rfl)
  have e2 : idx_main_v5 (ridx_main_v6 (ix2 a o) k) = ix2 o k :=
    funext fun d => Fin.ext (by match d with | ⟨0, _⟩ => rfl | ⟨1, _⟩ => rfl)
  rw [e1, e2]

/-- h·Uᵀ repeated down the rows. -/
theorem hU_rows_at (h : Row) (U : WMat) (b : Fin 4096) (o : Fin 2048) :
    val_main_v7 (F := Ideal) h U (ix2 b o) = dotRows h U 0 o := by
  rw [val_main_v7_apply]
  have e : idx_main_v7 (ix2 b o) = ix2 (0 : Fin 1) o :=
    funext fun d => Fin.ext (by match d with | ⟨0, _⟩ => rfl | ⟨1, _⟩ => rfl)
  rw [e, hU_at]

/-- A bias vector laid out as a row and repeated down the rows: its entry o at every (b, o). -/
theorem bias_at (v : Bias) (b : Fin 4096) (o : Fin 2048) :
    val_main_v3 (F := Ideal) v (ix2 b o) = v (ix1 o) := by
  rw [val_main_v3_apply, val_main_v2_apply]
  exact congrArg v (funext fun d => Fin.ext (by match d with | ⟨0, _⟩ => rfl))

/-- A row repeated down the rows: its entry (0, o) at every (b, o). -/
theorem row_at (w : Row) (b : Fin 4096) (o : Fin 2048) :
    val_main_v12 (F := Ideal) w (ix2 b o) = w (ix2 0 o) := by
  rw [val_main_v12_apply]
  exact congrArg w (funext fun d => Fin.ext (by match d with | ⟨0, _⟩ => rfl | ⟨1, _⟩ => rfl))

/-- The constant 1.0 repeated to every entry. -/
theorem one_at (i : S4096x2048.Idx) : val_main_v16 (F := Ideal) i = one := by
  rw [val_main_v16_apply, val_main_cst_apply]
  rfl

/-! ## A gate -/

/-- The stage of the update gate at (b, o): σ, written as its quotient, of the five summands
    added to one another in the program's order. -/
theorem gate_at (x : XMat) (h : Row) (W : WMat) (bw : Bias) (U : WMat) (bu : Bias) (bb : Row)
    (b : Fin 4096) (o : Fin 2048) :
    val_main_v19 (F := Ideal) x h W bw U bu bb (ix2 b o) = gateR x h W U bw bu bb b o := by
  rw [val_main_v19_apply, val_main_v17_apply, val_main_v15_apply, val_main_v14_apply,
    val_main_v13_apply, val_main_v11_apply, val_main_v8_apply, val_main_v4_apply]
  have e10 : val_main_v10 (F := Ideal) bu = val_main_v3 (F := Ideal) bu := rfl
  have e18 : val_main_v18 (F := Ideal) = val_main_v16 (F := Ideal) := rfl
  rw [e10, e18, xW_at, bias_at, hU_rows_at, bias_at, row_at, one_at]
  simp only [Ideal.hostDivf_def, Ideal.addf_def, Ideal.hostUnary_exp_def, Ideal.hostNegf_def,
    Ideal.negf_def]
  rfl

/-! ## The candidate state -/

/-- The reset gate times the state, at (b, k): r(b, k) · h(k). -/
theorem rh_at (x : XMat) (h : Row) (Wr : WMat) (bwr : Bias) (Ur : WMat) (bur : Bias) (br : Row)
    (b : Fin 4096) (k : Fin 2048) :
    val_main_v46 (F := Ideal) x h Wr bwr Ur bur br (ix2 b k)
      = gateR x h Wr Ur bwr bur br b k * h (ix2 0 k) := by
  rw [val_main_v46_apply]
  have e39 : val_main_v39 (F := Ideal) x h Wr bwr Ur bur br
      = val_main_v19 (F := Ideal) x h Wr bwr Ur bur br := rfl
  have e45 : val_main_v45 (F := Ideal) h = val_main_v12 (F := Ideal) h := rfl
  rw [e39, e45, gate_at, row_at]
  rfl

/-- (r ⊙ h)·Uhᵀ at (b, o): the sum over k of (r(b, k) · h(k)) · Uh(o, k). -/
theorem rhU_at (x : XMat) (h : Row) (Wr : WMat) (bwr : Bias) (Ur : WMat) (bur : Bias) (Uh : WMat)
    (br : Row) (b : Fin 4096) (o : Fin 2048) :
    val_main_v48 (F := Ideal) x h Wr bwr Ur bur Uh br (ix2 b o)
      = ∑ k : Fin 2048, (gateR x h Wr Ur bwr bur br b k * h (ix2 0 k)) * Uh (ix2 o k) := by
  have e48 : val_main_v48 (F := Ideal) x h Wr bwr Ur bur Uh br
      = val_main_v1 (F := Ideal) (val_main_v46 (F := Ideal) x h Wr bwr Ur bur br) Uh := rfl
  rw [e48, xW_at]
  unfold dotRows
  exact Finset.sum_congr rfl fun k _ => by rw [rh_at]

/-- The stage of the candidate state at (b, o): tanh of the five summands added to one another
    in the program's order. -/
theorem cand_at (x : XMat) (h : Row) (Wr : WMat) (bwr : Bias) (Ur : WMat) (bur : Bias)
    (Wh : WMat) (bwh : Bias) (Uh : WMat) (buh : Bias) (br bh : Row) (b : Fin 4096) (o : Fin 2048) :
    val_main_v55 (F := Ideal) x h Wr bwr Ur bur Wh bwh Uh buh br bh (ix2 b o)
      = candR x h Wr bwr Ur bur Wh bwh Uh buh br bh b o := by
  rw [val_main_v55_apply, val_main_v54_apply, val_main_v52_apply, val_main_v49_apply,
    val_main_v44_apply]
  have e41 : val_main_v41 (F := Ideal) x Wh = val_main_v1 (F := Ideal) x Wh := rfl
  have e43 : val_main_v43 (F := Ideal) bwh = val_main_v3 (F := Ideal) bwh := rfl
  have e51 : val_main_v51 (F := Ideal) buh = val_main_v3 (F := Ideal) buh := rfl
  have e53 : val_main_v53 (F := Ideal) bh = val_main_v12 (F := Ideal) bh := rfl
  rw [e41, e43, e51, e53, xW_at, bias_at, rhU_at, bias_at, row_at]
  simp only [Ideal.addf_def, Ideal.hostUnary_tanh_def]
  rfl

/-! ## The blend -/

/-- The result's entry (b, o): (1 − z) · h + z · ĥ. -/
theorem cell_at (x : XMat) (h : Row) (Wz : WMat) (bwz : Bias) (Uz : WMat) (buz : Bias)
    (Wr : WMat) (bwr : Bias) (Ur : WMat) (bur : Bias) (Wh : WMat) (bwh : Bias) (Uh : WMat)
    (buh : Bias) (bz br bh : Row) (b : Fin 4096) (o : Fin 2048) :
    val_main_v61 (F := Ideal) x h Wz bwz Uz buz Wr bwr Ur bur Wh bwh Uh buh bz br bh (ix2 b o)
      = cellRAt x h Wz bwz Uz buz Wr bwr Ur bur Wh bwh Uh buh bz br bh b o := by
  rw [val_main_v61_apply, val_main_v60_apply, val_main_v59_apply, val_main_v57_apply]
  have e56 : val_main_v56 (F := Ideal) = val_main_v16 (F := Ideal) := rfl
  have e58 : val_main_v58 (F := Ideal) h = val_main_v12 (F := Ideal) h := rfl
  rw [e56, e58, gate_at, cand_at, row_at, one_at]
  rfl

/-- The reference's last stage, as an array, is the cell of its seventeen arguments. -/
theorem result_eq (x : FVec Ideal S4096x2048 .f32) (h : FVec Ideal S1x2048 .f32)
    (Wz : FVec Ideal S2048x2048 .f32) (bwz : FVec Ideal S2048 .f32)
    (Uz : FVec Ideal S2048x2048 .f32) (buz : FVec Ideal S2048 .f32)
    (Wr : FVec Ideal S2048x2048 .f32) (bwr : FVec Ideal S2048 .f32)
    (Ur : FVec Ideal S2048x2048 .f32) (bur : FVec Ideal S2048 .f32)
    (Wh : FVec Ideal S2048x2048 .f32) (bwh : FVec Ideal S2048 .f32)
    (Uh : FVec Ideal S2048x2048 .f32) (buh : FVec Ideal S2048 .f32)
    (bz br bh : FVec Ideal S1x2048 .f32) :
    val_main_v61 (F := Ideal) x h Wz bwz Uz buz Wr bwr Ur bur Wh bwh Uh buh bz br bh
      = Cert.GruSpec.cellR x h Wz bwz Uz buz Wr bwr Ur bur Wh bwh Uh buh bz br bh := by
  funext j
  obtain ⟨b, o, rfl⟩ : ∃ (b : Fin 4096) (o : Fin 2048), j = ix2 b o := ⟨j 0, j 1, eq_ix2 j⟩
  exact cell_at x h Wz bwz Uz buz Wr bwr Ur bur Wh bwh Uh buh bz br bh b o

/-! ## The reference's run -/

/-- The reference's frame: every weakly fair execution terminates, nothing faults, and the
    seventeen argument arrays end as they began.  It is the program's run with the statement
    about the result dropped; no property of the inputs is used. -/
theorem frame_ri : Cert.frame_ReferenceIdeal := fun m ρ _ =>
  (θ_run Cert.ReferenceIdeal.defs _ _).mono (fun _ h c => (h c).2)
    (Cert.ReferenceIdeal.Value.run (F := Ideal) m ρ)

/-- The reference's run with its result named: from any memory, every weakly fair execution
    terminates with the result array holding the GRU cell (second arrangement) of the seventeen
    argument arrays as the run found them, and with those arrays unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v61)
        = Cert.GruSpec.cellR
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)) :=
  (θ_run Cert.ReferenceIdeal.defs _ _).mono
    (fun _ h c => ⟨(h c).1.trans ((val_main_v61_eq m' c).trans (result_eq _ _ _ _ _ _ _ _ _ _ _ _ _ _ _ _ _)), (h c).2⟩)
    (Cert.ReferenceIdeal.Value.run (F := Ideal) m' ρ')

/-- The same run read from a second memory m that agrees with m' on the seventeen arguments:
    the result array holds the cell of m's argument arrays. -/
theorem ref_run_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v61)
        = Cert.GruSpec.cellR
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)) :=
  (θ_run Cert.ReferenceIdeal.defs _ _).mono
    (fun _ h c => ⟨(h c).1.trans (by
        obtain ⟨h0, h1, h2, h3, h4, h5, h6, h7, h8, h9, h10, h11, h12, h13, h14, h15, h16⟩ := hagree c
        rw [h0, h1, h2, h3, h4, h5, h6, h7, h8, h9, h10, h11, h12, h13, h14, h15, h16]), (h c).2⟩)
    (ref_run m' ρ')

end Cert.ReferenceIdeal.RefValue

end
-- ==== Proof.Entry.lean ====
/-
  What the region finds on entry, and the frame claim read off a frame run.

  Before the one region the program runs 23 host operations: six reshapes of bias vectors to rows,
  the two one-row products h·Uzᵀ and h·Urᵀ with their bias sums, the candidate's bias sum, and five
  changes of float format of x and of four weight matrices.  None of them writes an argument
  array, so every argument is found as launched.  A window's block at a grid point is the
  rectangle of its array at the point's block index; an input window's current staging buffer
  holds that block whenever the body runs, whether the pipeline fetched it at this point or
  at an earlier one with the same block index.
-/
import proofs.«151567_j5050881540410_2_alg».proof.Proof.Gen.KernelIdeal.Launch
import proofs.«151567_j5050881540410_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The program up to the region -/

/-- The buffers of core c when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, for any proof data whose
    array is the entry contents and whose body leaves the block in place. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- Every argument array ends as launched: the state row h, which two windows stage, by what the
    library computes for an input window's array; the others, which no window stages, because the
    region leaves every other unscoped buffer as it found it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (V_main_arg0 m c),
      ((h c).1 5).trans (((dats 0 c).arrAt_in 5 rfl _).trans ((hA c 5).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

end Cert.KernelIdeal.Hand

end
-- ==== Proof.Cond.lean ====
/-
  The one branch of the kernel's body: it tests the second grid coordinate (the column-tile
  counter j) against zero.  Over the 8 × 8 grid, walked row-major, the point number t has
  j = t mod 8, so the branch is taken exactly at the points t ≡ 0 (mod 8): the first point of
  each row tile, where the reset gate of the whole row tile is computed and kept.
-/
import proofs.«151567_j5050881540410_2_alg».proof.Proof.Gen.KernelIdeal.Launch

noncomputable section

namespace Cert.KernelIdeal.Hand

open Idealize.ShloMosaic Cert.KernelIdeal Cert.KernelIdeal.Gen

/-- The branch condition as the body computes it from the grid coordinates. -/
abbrev cond0 (i : grid0.Coords) : Prop :=
  (Scalar.cmpi .ne (Scalar.extui (Scalar.cmpi .eq (BitVec.ofNat 32 (i 1).val) 0#32)) 0#32) = 1#1

/-- It holds exactly at the first point of each row tile. -/
theorem hcond0 : ∀ t : Fin cfg0.N, cond0 (grid0.coords t) ↔ t.val % 8 = 0 :=
  (by decide +kernel : ∀ t : Fin grid0.N, cond0 (grid0.coords t) ↔ t.val % 8 = 0)

end Cert.KernelIdeal.Hand

end
-- ==== Proof.RunA.lean ====
/-
  The body of the kernel at the first column tile of a row tile (the column-tile counter j is 0, the body's one
  branch taken).  There the body computes the reset gate r = σ(x·Wrᵀ + b_r) of the WHOLE 512 × 2048 row tile and
  keeps it in the block it carries from one column tile to the next; it then reads that block back and computes
  the output tile (1 − z)·h + z·ĥ, where ĥ = tanh(x·Whᵀ + (r ⊙ h)·Uhᵀ + b_h) uses the gate just kept.

  This module runs the body once in that case, on whole buffers holding named contents, and records what its
  two stores leave: one piece over the whole kept block and one piece over the whole output tile, each a named
  pure function (the skeleton's payloads) of the input blocks.  The stores are shown to cover their blocks, and
  the pieces are given in closed form.
-/
import proofs.«151567_j5050881540410_2_alg».proof.Proof.Cond
import proofs.«151567_j5050881540410_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Both offsets of a whole-block access are zero. -/
theorem hz : (![0, 0] : Fin 2 → Nat) = fun _ => 0 := funext fun a => by fin_cases a <;> rfl

set_option maxHeartbeats 4000000 in
/-- THE FIRST COLUMN TILE OF A ROW TILE (j = 0, the branch taken). On whole buffers — the ten inputs at their
    contents `x0 … x9`, the output tile and the kept reset gate at anything — the body reads every input, computes
    the reset gate of the whole row tile, σ(x·Wrᵀ + b_r), and keeps it (one store over the whole 512 × 2048 block),
    reads it back, and stores the output tile (one store over the whole 512 × 256 block). It ends holding the
    inputs as they were, the output tile with the pieces `L10` written and the kept block with the pieces `LS`
    written; the two piece lists are what the run leaves behind, read off when the buffers are handed on. -/
noncomputable def kernelRunA (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) :
    Σ' (L10 : List (View.Piece (Elt F) S512x256 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; iexact HS

/-- In the case j = 0 the one store into the output tile covers it. -/
theorem coverA_out (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) (y : S512x256.Idx) :
    ∃ pc ∈ (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).1 S512x256.size (by sl_kernel_rfl) y

/-- In the case j = 0 the one store into the kept block covers it. -/
theorem coverA_scr (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) (y : S512x2048.Idx) :
    ∃ pc ∈ (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).2.1 S512x2048.size (by sl_kernel_rfl) y

/-- What the case j = 0 keeps: ONE piece, the whole 512 × 2048 block, carrying the reset gate of the row tile
    as a function of the x tile `x0`, the whole of Wr `x2` and the reset bias row `x8`. -/
theorem runA_scr_eq (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) :
    (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).2.1
      = [⟨Rect.unit ![0, 0] S512x2048.size inb_S512x2048_S512x2048_0_0, k0_pay3 x0 x2 x8⟩] := by
  unfold kernelRunA
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x2048) hz, View.ld_unit_zero (S := S256x2048) hz, View.ld_unit_zero (S := S2048x2048) hz, View.ld_unit_zero (S := S1x2048) hz, View.ld_unit_zero (S := S1x256) hz]

/-- What the case j = 0 leaves in the output tile: ONE piece, the whole 512 × 256 block, carrying
    (1 − z)·h + z·ĥ with the candidate ĥ computed from the reset gate JUST KEPT (read back from the kept block). -/
theorem runA_out_eq (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) :
    (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).1
      = [⟨Rect.unit ![0, 0] S512x256.size inb_S512x256_S512x256_0_0, k0_pay1 (k0_pay4 x0 x1 x7) (k0_pay5 x0 x5 (k0_pay3 x0 x2 x8) x3 x4 x9) x6 (k0_pay6 x0 x1 x7)⟩] := by
  unfold kernelRunA
  dsimp only
  sl_unfold_words
  rw [View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x2048) hz, View.ld_unit_zero (S := S256x2048) hz, View.ld_unit_zero (S := S2048x2048) hz, View.ld_unit_zero (S := S1x2048) hz, View.ld_unit_zero (S := S1x256) hz]

end Cert.KernelIdeal.Hand

end
-- ==== Proof.RunB.lean ====
/-
  The body of the kernel at a later column tile of a row tile (the column-tile counter j is not 0, the body's
  one branch not taken).  There the body stores nothing into the block it carries from one column tile to the
  next: it finds in it the reset gate r of the whole row tile, kept at the row tile's first column tile, reads
  it, and computes the output tile (1 − z)·h + z·ĥ with ĥ = tanh(x·Whᵀ + (r ⊙ h)·Uhᵀ + b_h).

  This module runs the body once in that case, on whole buffers holding named contents — the kept block at
  contents `xs`, handed back untouched — and records what its one store leaves: one piece over the whole output
  tile, a named pure function (the skeleton's payloads) of the input blocks and of `xs`.  The store is shown to
  cover the tile, and the piece is given in closed form.
-/
import proofs.«151567_j5050881540410_2_alg».proof.Proof.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A LATER COLUMN TILE OF A ROW TILE (j ≠ 0, the branch not taken). On whole buffers — the ten inputs at their
    contents `x0 … x9`, the output tile at anything, and the kept block at the contents `xs` the earlier column
    tiles of this row tile left — the body reads every input and the kept block, stores nothing into the kept
    block, and stores the output tile (one store over the whole 512 × 256 block). It ends holding the inputs and
    the kept block as they were and the output tile with the pieces `L10` written. -/
noncomputable def kernelRunB (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : ¬cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) (xs : Vec F S512x2048 .f32) :
    { L10 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xs) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; isplitr; · ipureintro; exact harg13.read_unread _
    iexact HS

/-- In the case j ≠ 0 the one store into the output tile covers it. -/
theorem coverB_out (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : ¬cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) (xs : Vec F S512x2048 .f32) (y : S512x256.Idx) :
    ∃ pc ∈ (kernelRunB c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9 xs).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9 xs).1 S512x256.size (by sl_kernel_rfl) y

/-- What the case j ≠ 0 leaves in the output tile: ONE piece, the whole 512 × 256 block, carrying
    (1 − z)·h + z·ĥ with the candidate ĥ computed from the reset gate `xs` found in the kept block. -/
theorem runB_out_eq (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : ¬cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) (xs : Vec F S512x2048 .f32) :
    (kernelRunB c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9 xs).1
      = [⟨Rect.unit ![0, 0] S512x256.size inb_S512x256_S512x256_0_0, k0_pay1 (k0_pay4 x0 x1 x7) (k0_pay5 x0 x5 xs x3 x4 x9) x6 (k0_pay6 x0 x1 x7)⟩] := by
  unfold kernelRunB
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x2048) hz, View.ld_unit_zero (S := S256x2048) hz, View.ld_unit_zero (S := S2048x2048) hz, View.ld_unit_zero (S := S1x2048) hz, View.ld_unit_zero (S := S1x256) hz]

end Cert.KernelIdeal.Hand

end
-- ==== Proof.LibSharedFrame.lean ====
/-
  The launch half of a frame certificate for a pipeline kernel whose windows may SHARE AN ARRAY.

  The frame run with a tracking invariant (`Pipeline.θ_run_frame_track`) asks that the windows' arrays be pairwise
  distinct and that every window lend the full share of its array. Both requirements serve one step only: turning the
  buffers behind the arrays, each whole at the full share, into the proof data's `arrays` at the region's entry. Here
  that step is a hypothesis (`hsplit`), so that one array read through several input windows may be dealt among them
  in fractions; everything else is the same run: the generator register and the scoped rest are routed into the class
  invariant `ΦA` at entry and out of it at exit, the buffers that bypass the region are read back at the end.
-/
import Idealize.ShloMosaic.Lib.Pipeline.Frame
import Idealize.ShloMosaic.Lib.Pipeline.Kit
import Idealize.ShloMosaic.Lib.Pipeline.Launch

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section FrameShared

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (hne : ∀ w : Fin (cfgs p).W, 0 < ((cfgs p).spec w).block.numel)
  (harr : ∀ w, ((cfgs p).spec w).arr.IsWhole) (hstage : ∀ w s, (((cfgs p).spec w).stage s).IsWhole)
  (defs₀ : Defs nD τ sig Val Λ₀) (𝒱₀ : Variants)

local notation "cfg" => cfgs p
local notation "𝔻" => Pipeline.defs (fun q => Cfg.toPCfg (Val := Val) (cfgs q)) defs₀

include hinj hw hne harr hstage in
/-- THE FRAME RUN with a TRACKING invariant for a pipeline whose windows may share arrays: `θ_run_frame_track` with
    the layout facts given one by one — the program's staging cells pairwise distinct (`hinj`), the windows laid out
    as `WinFacts₀` says (the arrays need NOT be distinct), no block empty, every array and staging memref a whole
    buffer — and, in place of "every window lends the full share of its own array", the entailment `hsplit`: the
    buffers behind the arrays, each whole at the full share at the region-entry contents `V c` (`arrBufs`), yield the
    proof data's `arrays` at entry. The data's `Φ` is any invariant stated point by point, entered from the class
    invariant `ΦA` before point 0 (`hin`) and returned to it after the last point (`hout`). Concludes `FramePost`:
    every window's array ends at `arrAt w N`, every bypassing buffer at its region-entry contents. -/
theorem θ_run_frame_track_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) ((cfg).toPCfg (Val := Val)).pre (cfg).spec c (V c))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (QY := fun c s => ∀ b ∈ restRefsP sig ((cfg).toPCfg (Val := Val)).pre (cfg).spec, s.mem ((c.tc : Thread nD τ).loc b) = V c b)
    (hY := fun c s' => by
      iintro ⟨-, HU, HSI⟩
      unfold unscopedRestP
      imodintro
      iapply (pointsTo_read_all (restRefsP sig ((cfg).toPCfg (Val := Val)).pre (cfg).spec) (fun b => (c.tc : Thread nD τ).loc b) (V c) s')
      isplitl [HU] <;> iassumption)
    (hQ := fun s h c => ⟨(h c).1, rest_of_restP ((cfg).toPCfg (Val := Val)).pre (cfg).spec ((cfg).toPCfg_adm (Val := Val)).1 c (V c) s
      (fun k => k.elim0) (h c).2.1 (h c).2.2⟩)

end FrameShared

end Pipeline

end Idealize.ShloMosaic
-- ==== Proof.KSplit.lean ====
/-
  The split of the arrays of this kernel's one pipeline among its windows.

  Windows 5 and 6 both read the state row `main_arg1` (the whole row, and its column tile). The other nine windows
  each have an array of their own. The buffers behind the arrays are ten, each held whole at the full share; the
  pipeline's proof data hold ELEVEN windowed arrays, each at the window's share. The full share of the state row is
  cut into its left and right halves, one for each of the two windows on it; every other window takes the full share
  of its own array.
-/
import proofs.«151567_j5050881540410_2_alg».proof.Proof.Gen.KernelIdeal.Launch
import proofs.«151567_j5050881540410_2_alg».proof.Proof.LibSharedFrame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

set_option Elab.async false

variable {F : FTy → Type} [FloatOps F]

local notation "𝕄" => MT nD τ sig Unit (Elt F) ℕ (UR sig nD τ) ℕ

/-- An input window's share is the proof data's own. -/
theorem share_in {c : Dev nD} (dat : Pipeline.Dat τ (Elt F) Unit ℕ (UR sig nD τ) ℕ cfg0 c) (w : Fin cfg0.W)
    (h : (cfg0.win w).isOut = false) : dat.share w = dat.q w := by
  unfold Pipeline.Dat.share
  exact if_neg (by rw [h]; exact Bool.false_ne_true)

/-- An output window's share is the full share. -/
theorem share_out {c : Dev nD} (dat : Pipeline.Dat τ (Elt F) Unit ℕ (UR sig nD τ) ℕ cfg0 c) (w : Fin cfg0.W)
    (h : (cfg0.win w).isOut = true) : dat.share w = fullShare := by
  unfold Pipeline.Dat.share
  exact if_pos h

/-- The ten buffers behind the eleven windows' arrays, in window order (the state row once). -/
theorem arrBufs_eq (c : Dev nD) (V : (b : Ref sig .tc) → Buf (Elt F) ((c.tc : Thread nD τ).loc b)) :
    (Pipeline.arrBufs spec0 c V : sProp 𝕄)
      = iprop((((c.tc : Thread nD τ).loc main_v18) ↦{fullShare} V main_v18)
          ∗ (((c.tc : Thread nD τ).loc main_v19) ↦{fullShare} V main_v19)
          ∗ (((c.tc : Thread nD τ).loc main_v20) ↦{fullShare} V main_v20)
          ∗ (((c.tc : Thread nD τ).loc main_v21) ↦{fullShare} V main_v21)
          ∗ (((c.tc : Thread nD τ).loc main_v22) ↦{fullShare} V main_v22)
          ∗ (((c.tc : Thread nD τ).loc main_arg1) ↦{fullShare} V main_arg1)
          ∗ (((c.tc : Thread nD τ).loc main_v10) ↦{fullShare} V main_v10)
          ∗ (((c.tc : Thread nD τ).loc main_v15) ↦{fullShare} V main_v15)
          ∗ (((c.tc : Thread nD τ).loc main_v17) ↦{fullShare} V main_v17)
          ∗ (((c.tc : Thread nD τ).loc main_v23) ↦{fullShare} V main_v23)) := by
  unfold Pipeline.arrBufs
  exact bigSep_eq_bigSepL_of_eq [main_v18, main_v19, main_v20, main_v21, main_v22, main_arg1, main_v10, main_v15, main_v17, main_v23]
    (by decide) (by decide) _

/-- THE SPLIT: the buffers behind the arrays, each whole at the full share at contents `V`, yield the proof data's
    windowed arrays at the same contents, when the data hold the state row's two windows at the two halves of the full
    share (window 5 the left, window 6 the right) and every other input window at the full share. -/
theorem hsplit (c : Dev nD) (dat : Pipeline.Dat τ (Elt F) Unit ℕ (UR sig nD τ) ℕ cfg0 c)
    (V : (b : Ref sig .tc) → Buf (Elt F) ((c.tc : Thread nD τ).loc b))
    (Fn : (w : Fin cfg0.W) → Buf (Elt F) ((cfg0.win w).arr.view.loc (c.tc : Thread nD τ)))
    (hFn : ∀ w, Fn w = V (Pipeline.arrRef spec0 w))
    (hq5 : dat.q 5 = fullShare.left) (hq6 : dat.q 6 = fullShare.right)
    (hq : ∀ w, w ≠ 5 → w ≠ 6 → dat.q w = fullShare) :
    (Pipeline.arrBufs spec0 c V : sProp 𝕄) ⊢ dat.arrays Fn := by
  have hR : dat.arrays Fn
      = bigSep Finset.univ fun w : Fin 11 =>
          (((c.tc : Thread nD τ).loc (Pipeline.arrRef spec0 w)) ↦{dat.share w} V (Pipeline.arrRef spec0 w) : sProp 𝕄) := by
    unfold Pipeline.Dat.arrays
    exact bigSep_congr fun w _ => by rw [(Gen.arr_whole0 w).set_eq_univ, hFn]
  have s0 : dat.share 0 = fullShare := (share_in dat 0 rfl).trans (hq 0 (by decide) (by decide))
  have s1 : dat.share 1 = fullShare := (share_in dat 1 rfl).trans (hq 1 (by decide) (by decide))
  have s2 : dat.share 2 = fullShare := (share_in dat 2 rfl).trans (hq 2 (by decide) (by decide))
  have s3 : dat.share 3 = fullShare := (share_in dat 3 rfl).trans (hq 3 (by decide) (by decide))
  have s4 : dat.share 4 = fullShare := (share_in dat 4 rfl).trans (hq 4 (by decide) (by decide))
  have s5 : dat.share 5 = fullShare.left := (share_in dat 5 rfl).trans hq5
  have s6 : dat.share 6 = fullShare.right := (share_in dat 6 rfl).trans hq6
  have s7 : dat.share 7 = fullShare := (share_in dat 7 rfl).trans (hq 7 (by decide) (by decide))
  have s8 : dat.share 8 = fullShare := (share_in dat 8 rfl).trans (hq 8 (by decide) (by decide))
  have s9 : dat.share 9 = fullShare := (share_in dat 9 rfl).trans (hq 9 (by decide) (by decide))
  have s10 : dat.share 10 = fullShare := share_out dat 10 rfl
  rw [hR, Gen.bigSep_W0, s0, s1, s2, s3, s4, s5, s6, s7, s8, s9, s10, arrBufs_eq]
  iintro ⟨H0, H1, H2, H3, H4, Hh, H7, H8, H9, H10⟩
  ihave Hh := (pointsTo_share (PosShare.mem_left_op_right fullShare)).1 $$ Hh
  icases Hh with ⟨H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The split in the form the launch asks for: at the region's entry the windowed arrays hold the data's entry contents
    `A`, which are `V` at each window's array (`hA`). -/
theorem hsplit_entry (c : Dev nD) (dat : Pipeline.Dat τ (Elt F) Unit ℕ (UR sig nD τ) ℕ cfg0 c)
    (V : (b : Ref sig .tc) → Buf (Elt F) ((c.tc : Thread nD τ).loc b))
    (hA : ∀ w, dat.A w = V (Pipeline.arrRef spec0 w))
    (hq5 : dat.q 5 = fullShare.left) (hq6 : dat.q 6 = fullShare.right)
    (hq : ∀ w, w ≠ 5 → w ≠ 6 → dat.q w = fullShare) :
    (Pipeline.arrBufs spec0 c V : sProp 𝕄) ⊢ dat.arrays (dat.arrAt · 0) :=
  hsplit c dat V _ (fun w => hA w) hq5 hq6 hq

/-- The frame run for windows sharing an array, at this program's pipeline: the layout facts are the generated ones;
    what remains is the body obligation, the data's debts, @main up to the region, the split above at every core, and
    the invariant's entry and exit. -/
example (dats : (p : Fin 1) → (c : Dev nD) → Pipeline.Dat τ (Elt F) Unit ℕ (UR sig nD τ) ℕ (cfgs p) c)
    (𝒱₀ : Variants) (m : (ℓ : Loc nD τ sig) → Buf (Elt F) ℓ) (g : Dev nD → PrngReg)
    (hbody : ∀ c, Pipeline.BodyObligationLoose (dats 0 c) (defs₀ (F := F)) 𝒱₀ () Set.univ)
    (howed : ∀ c t, (dats 0 c).owed t = 0)
    (V : (c : Dev nD) → (b : Ref sig .tc) → Buf (Elt F) ((c.tc : Thread nD τ).loc b))
    (hmain : Pipeline.HMain (Ix := Unit) (Name := ℕ) (U := UR sig nD τ) (Lvl := ℕ) cfgs 0 (defs₀ (F := F)) 𝒱₀ m main V)
    (hsplit' : ∀ c, (Pipeline.arrBufs (cfgs 0).spec c (V c) : sProp 𝕄) ⊢ (dats 0 c).arrays ((dats 0 c).arrAt · 0))
    (hin : ∀ c, Pipeline.ΦA (cfgs 0).spec c ⊢ (dats 0 c).Φ 0)
    (hout : ∀ c, (dats 0 c).Φ (Fin.last (cfgs 0).N) ⊢ Pipeline.ΦA (cfgs 0).spec c) :
    θ_run (Pipeline.defs (fun q => Pipeline.Cfg.toPCfg (Val := Elt F) (cfgs q)) defs₀) (onTc main) (s₀ m g)
      (Pipeline.FramePost cfgs dats 0 V) :=
  Pipeline.θ_run_frame_track_shared cfgs dats 0 Gen.cellOf_inj Gen.winFacts₀0 Gen.block_pos0 Gen.arr_whole0 Gen.stage_whole0
    defs₀ 𝒱₀ m g main hbody howed V hmain hsplit' hin hout

end Cert.KernelIdeal.Hand

end
-- ==== Proof.CellFrame.lean ====
/-
  The frame of the kernel: every weakly fair execution terminates, nothing faults, and the
  argument arrays end as launched.

  The grid is walked row-major: point t has row tile i = t / 8 and column tile j = t mod 8.  At a
  point with j = 0 the body computes the reset gate r of the whole row tile and stores it in the
  scratch buffer; at every point it reads r back from the scratch, forms the update gate and the
  candidate of the column tile, and stores the output tile.  So what the scratch holds after point
  t is what the last point with j = 0 stored, and the region's invariant carries exactly that: before
  the first point the scratch holds anything; before a later point it holds what the point before
  left.  Each input window's staging buffer holds its block whenever the body runs.  The state row
  h is handed to the kernel through two windows (the whole row, and the column tile): the full
  ownership of its array is dealt in two halves, one to each, which suffices because both only read.
-/
import proofs.«151567_j5050881540410_2_alg».proof.Proof.Entry
import proofs.«151567_j5050881540410_2_alg».proof.Proof.RunB
import proofs.«151567_j5050881540410_2_alg».proof.Proof.LibSharedFrame
import proofs.«151567_j5050881540410_2_alg».proof.Proof.KSplit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's buffers at a point -/

/-- One staging buffer of the output window, through which its contents are stated. -/
abbrev VO : View sig .tc .vmem S512x256 .f32 := (Memref.whole cc0_stg10_0 : Memref sig .tc .vmem S512x256 .f32).view
/-- The scratch buffer that keeps the reset gate of the current row tile, and its view. -/
abbrev scM : Memref sig .tc .vmem S512x2048 .f32 := Memref.whole cc0_scratch0
abbrev VS : View sig .tc .vmem S512x2048 .f32 := scM.view
/-- Each window's current staging buffer at point t. -/
abbrev ms0 (t : Fin cfg0.N) : Memref sig .tc .vmem S512x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2048 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x256 .f32 := win0_10.stage (cfg0.slots t 10)
abbrev hs10 (t : Fin cfg0.N) : (ms10 t).IsWhole := hstage0_10 ((cfg0.slots t 10).cast nbuf0_10)

/-- The class invariant with the scratch as a buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What one point leaves -/

/-- The body's run at a point with j = 0, on the point's buffers and blocks. -/
def runA (c : Dev nD) (t : Fin cfg0.N) (hc : cond0 (grid0.coords t)) :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t)
/-- The body's run at a point with j ≠ 0, the scratch at xs. -/
def runB (c : Dev nD) (t : Fin cfg0.N) (hc : ¬cond0 (grid0.coords t)) (xs : Vec F S512x2048 .f32) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) xs

/-- What a point with j = 0 leaves in the output tile's buffer and in the scratch. -/
def outA (c : Dev nD) (t : Fin cfg0.N) (hc : cond0 (grid0.coords t)) : Vec F S512x256 .f32 :=
  VO.read (Elt F) (VO.writes (Elt F) VO.junk (runA m c t hc).1)
def scrA (c : Dev nD) (t : Fin cfg0.N) (hc : cond0 (grid0.coords t)) : Vec F S512x2048 .f32 :=
  VS.read (Elt F) (VS.writes (Elt F) VS.junk (runA m c t hc).2.1)
/-- What a point with j ≠ 0 leaves in the output tile's buffer, the scratch at xs. -/
def outB (c : Dev nD) (t : Fin cfg0.N) (hc : ¬cond0 (grid0.coords t)) (xs : Vec F S512x2048 .f32) : Vec F S512x256 .f32 :=
  VO.read (Elt F) (VO.writes (Elt F) VO.junk (runB m c t hc xs).1)

/-- The output tile's buffer and the scratch after the body at position n, by recursion on the
    position: a point with j = 0 stores both; a later point of the row tile stores the output tile
    from the scratch the point before left, and leaves the scratch as it was. -/
def outsAt (c : Dev nD) : (n : ℕ) → n < cfg0.N → Vec F S512x256 .f32 × Vec F S512x2048 .f32
  | 0, hn => (outA m c ⟨0, hn⟩ ((hcond0 ⟨0, hn⟩).mpr (Nat.zero_mod _)), scrA m c ⟨0, hn⟩ ((hcond0 ⟨0, hn⟩).mpr (Nat.zero_mod _)))
  | n + 1, hn =>
    if h0 : (n + 1) % 8 = 0 then
      (outA m c ⟨n + 1, hn⟩ ((hcond0 ⟨n + 1, hn⟩).mpr h0), scrA m c ⟨n + 1, hn⟩ ((hcond0 ⟨n + 1, hn⟩).mpr h0))
    else
      (outB m c ⟨n + 1, hn⟩ (fun h => h0 ((hcond0 ⟨n + 1, hn⟩).mp h)) (outsAt c n (Nat.lt_of_succ_lt hn)).2,
        (outsAt c n (Nat.lt_of_succ_lt hn)).2)

theorem outsAt_A (c : Dev nD) (t : Fin cfg0.N) (h0 : t.val % 8 = 0) :
    outsAt m c t.val t.isLt = (outA m c t ((hcond0 t).mpr h0), scrA m c t ((hcond0 t).mpr h0)) := by
  obtain ⟨n, hn⟩ := t
  cases n with
  | zero => exact rfl
  | succ n => exact (dif_pos h0).trans rfl

theorem outsAt_B (c : Dev nD) (t : Fin cfg0.N) (h0 : ¬t.val % 8 = 0) :
    outsAt m c t.val t.isLt
      = (outB m c t (fun h => h0 ((hcond0 t).mp h)) (outsAt m c (t.val - 1) (Nat.lt_of_le_of_lt (Nat.sub_le _ _) t.isLt)).2,
          (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant -/

/-- Before the first point the class invariant (the scratch at anything); before a later point the
    scratch at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input's buffer at its block, the
    output's at what the point stored; the invariant above; nothing owed; the state row's array
    held in two halves by its two windows, every other input's at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
  Φ t := PhiS m c t.val (Nat.le_of_lt_succ t.isLt)
  q w := match w with
    | ⟨0, _⟩ => fullShare
    | ⟨1, _⟩ => fullShare
    | ⟨2, _⟩ => fullShare
    | ⟨3, _⟩ => fullShare
    | ⟨4, _⟩ => fullShare
    | ⟨5, _⟩ => fullShare.left
    | ⟨6, _⟩ => fullShare.right
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (outsAt m c t.val t.isLt).1 := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d
theorem before_4 (c : Dev nD) (t : Fin cfg0.N) (d) : (dats m 0 c).before 4 t d = iblk m c 4 t :=
  before_in_4 m (dats m 0 c) (A_eq m c 4) (after_4 m c) t d
theorem before_5 (c : Dev nD) (t : Fin cfg0.N) (d) : (dats m 0 c).before 5 t d = iblk m c 5 t :=
  before_in_5 m (dats m 0 c) (A_eq m c 5) (after_5 m c) t d
theorem before_6 (c : Dev nD) (t : Fin cfg0.N) (d) : (dats m 0 c).before 6 t d = iblk m c 6 t :=
  before_in_6 m (dats m 0 c) (A_eq m c 6) (after_6 m c) t d
theorem before_7 (c : Dev nD) (t : Fin cfg0.N) (d) : (dats m 0 c).before 7 t d = iblk m c 7 t :=
  before_in_7 m (dats m 0 c) (A_eq m c 7) (after_7 m c) t d
theorem before_8 (c : Dev nD) (t : Fin cfg0.N) (d) : (dats m 0 c).before 8 t d = iblk m c 8 t :=
  before_in_8 m (dats m 0 c) (A_eq m c 8) (after_8 m c) t d
theorem before_9 (c : Dev nD) (t : Fin cfg0.N) (d) : (dats m 0 c).before 9 t d = iblk m c 9 t :=
  before_in_9 m (dats m 0 c) (A_eq m c 9) (after_9 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
/-- The body at any point: the inputs' buffers hold their blocks; the point number says which case
    it is; the invariant hands the body the scratch (at anything before the first point, else at
    what the point before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · -- a point with j = 0
    rw [show (dats m 0 c).leavesExact 0 t = owns (c : Thread nD τ) (ms0 t) fullShare (iblk m c 0 t) from by
      unfold Dat.leavesExact; rw [after_0]]
    rw [show (dats m 0 c).leavesExact 1 t = owns (c : Thread nD τ) (ms1 t) fullShare (iblk m c 1 t) from by
      unfold Dat.leavesExact; rw [after_1]]
    rw [show (dats m 0 c).leavesExact 2 t = owns (c : Thread nD τ) (ms2 t) fullShare (iblk m c 2 t) from by
      unfold Dat.leavesExact; rw [after_2]]
    rw [show (dats m 0 c).leavesExact 3 t = owns (c : Thread nD τ) (ms3 t) fullShare (iblk m c 3 t) from by
      unfold Dat.leavesExact; rw [after_3]]
    rw [show (dats m 0 c).leavesExact 4 t = owns (c : Thread nD τ) (ms4 t) fullShare (iblk m c 4 t) from by
      unfold Dat.leavesExact; rw [after_4]]
    rw [show (dats m 0 c).leavesExact 5 t = owns (c : Thread nD τ) (ms5 t) fullShare (iblk m c 5 t) from by
      unfold Dat.leavesExact; rw [after_5]]
    rw [show (dats m 0 c).leavesExact 6 t = owns (c : Thread nD τ) (ms6 t) fullShare (iblk m c 6 t) from by
      unfold Dat.leavesExact; rw [after_6]]
    rw [show (dats m 0 c).leavesExact 7 t = owns (c : Thread nD τ) (ms7 t) fullShare (iblk m c 7 t) from by
      unfold Dat.leavesExact; rw [after_7]]
    rw [show (dats m 0 c).leavesExact 8 t = owns (c : Thread nD τ) (ms8 t) fullShare (iblk m c 8 t) from by
      unfold Dat.leavesExact; rw [after_8]]
    rw [show (dats m 0 c).leavesExact 9 t = owns (c : Thread nD τ) (ms9 t) fullShare (iblk m c 9 t) from by
      unfold Dat.leavesExact; rw [after_9]]
    rw [show (dats m 0 c).leavesExact 10 t = owns (c : Thread nD τ) (ms10 t) fullShare ((outsAt m c t.val t.isLt).1) from by
      unfold Dat.leavesExact; rw [after_10]]
    rw [outsAt_A m c t h0]
    unfold outA scrA; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t ((hcond0 t).mpr h0)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%e10, H10⟩, ⟨%es, HS⟩⟩
      isplitl [HS Hg]
      · isplitl [HS]
        · unfold owns; iexists _; isplitr
          swap; · iexact HS
          ipureintro; exact View.read_writes_of_cover _ _ _ _ _ (coverA_scr c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverA_out c _ _ _ _ _ _ _ _ _ _ _ _ _ _ _ _ _ _ _ _ _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t ((hcond0 t).mpr h0)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexists _; iexact HS
      iintro ⟨H0, H1, H2, H3, H4, H5, H6, H7, H8, H9, ⟨%e10, H10⟩, ⟨%es, HS⟩⟩
      isplitl [HS Hg]
      · isplitl [HS]
        · unfold owns; iexists _; isplitr
          swap; · iexact HS
          ipureintro; exact View.read_writes_of_cover _ _ _ _ _ (coverA_scr c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverA_out c _ _ _ _ _ _ _ _ _ _ _ _ _ _ _ _ _ _ _ _ _ _ _ _ _ _ _ _ _ _ _ _ _ _ _ _)
  · -- a later point of the row tile
    rw [show (dats m 0 c).leavesExact 0 t = owns (c : Thread nD τ) (ms0 t) fullShare (iblk m c 0 t) from by
      unfold Dat.leavesExact; rw [after_0]]
    rw [show (dats m 0 c).leavesExact 1 t = owns (c : Thread nD τ) (ms1 t) fullShare (iblk m c 1 t) from by
      unfold Dat.leavesExact; rw [after_1]]
    rw [show (dats m 0 c).leavesExact 2 t = owns (c : Thread nD τ) (ms2 t) fullShare (iblk m c 2 t) from by
      unfold Dat.leavesExact; rw [after_2]]
    rw [show (dats m 0 c).leavesExact 3 t = owns (c : Thread nD τ) (ms3 t) fullShare (iblk m c 3 t) from by
      unfold Dat.leavesExact; rw [after_3]]
    rw [show (dats m 0 c).leavesExact 4 t = owns (c : Thread nD τ) (ms4 t) fullShare (iblk m c 4 t) from by
      unfold Dat.leavesExact; rw [after_4]]
    rw [show (dats m 0 c).leavesExact 5 t = owns (c : Thread nD τ) (ms5 t) fullShare (iblk m c 5 t) from by
      unfold Dat.leavesExact; rw [after_5]]
    rw [show (dats m 0 c).leavesExact 6 t = owns (c : Thread nD τ) (ms6 t) fullShare (iblk m c 6 t) from by
      unfold Dat.leavesExact; rw [after_6]]
    rw [show (dats m 0 c).leavesExact 7 t = owns (c : Thread nD τ) (ms7 t) fullShare (iblk m c 7 t) from by
      unfold Dat.leavesExact; rw [after_7]]
    rw [show (dats m 0 c).leavesExact 8 t = owns (c : Thread nD τ) (ms8 t) fullShare (iblk m c 8 t) from by
      unfold Dat.leavesExact; rw [after_8]]
    rw [show (dats m 0 c).leavesExact 9 t = owns (c : Thread nD τ) (ms9 t) fullShare (iblk m c 9 t) from by
      unfold Dat.leavesExact; rw [after_9]]
    rw [show (dats m 0 c).leavesExact 10 t = owns (c : Thread nD τ) (ms10 t) fullShare ((outsAt m c t.val t.isLt).1) from by
      unfold Dat.leavesExact; rw [after_10]]
    rw [outsAt_B m c t h0]
    unfold outB; (try dsimp only)
    have hz : t.val ≠ 0 := fun h => h0 (by rw [h])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB m c t (fun h => h0 ((hcond0 t).mp h)) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverB_out c _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run and the frame -/

set_option backward.isDefEq.respectTransparency.types false in
/-- Every weakly fair execution of the program terminates, with every window's array at what the
    library computes from the proof data and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (hbody := fun c => (body_obligation m c).loose) (howed := fun _ _ => rfl)
    (V := V m) (hmain := hmain m Variants.none)
    (hsplit := fun c => hsplit_entry c (dats m 0 c) (V m c) (A_eq m c) rfl rfl
      (fun w h5 h6 => by fin_cases w <;> first | rfl | exact absurd rfl h5 | exact absurd rfl h6))
    (hin := hin m) (hout := hout m)

/-- The frame claim at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Hand

end
-- ==== Proof.Blocks.lean ====
/-
  The windows' blocks read at an index.

  Grid point t = 8·i + j has row tile i = t / 8 and column tile j = t mod 8.  The x window's block
  is rows 512·i … 512·i + 511 of x; the Wz, Wh and Uh windows' blocks are rows 256·j … 256·j + 255
  of their matrices (the output features of column tile j); the Wr window's block is all of Wr;
  the state row and the reset gate's bias row are read whole; the state row's tile, the update
  gate's bias tile and the candidate's bias tile are columns 256·j … 256·j + 255 of their rows;
  the output tile is rows 512·i …, columns 256·j … of the result.  The block index of every
  window at every one of the 64 points is decided once; a block's coordinate is then always
  index × size + the coordinate inside the block.
-/
import proofs.«151567_j5050881540410_2_alg».proof.Proof.Entry
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- Every window's block index at every grid point, in closed form. -/
theorem idx_facts : ∀ t : Fin cfg0.N,
    win0_0.index t 0 = t.val / 8 ∧ win0_0.index t 1 = 0
    ∧ win0_1.index t 0 = t.val % 8 ∧ win0_1.index t 1 = 0
    ∧ win0_2.index t 0 = 0 ∧ win0_2.index t 1 = 0
    ∧ win0_3.index t 0 = t.val % 8 ∧ win0_3.index t 1 = 0
    ∧ win0_4.index t 0 = t.val % 8 ∧ win0_4.index t 1 = 0
    ∧ win0_5.index t 0 = 0 ∧ win0_5.index t 1 = 0
    ∧ win0_6.index t 0 = 0 ∧ win0_6.index t 1 = t.val % 8
    ∧ win0_7.index t 0 = 0 ∧ win0_7.index t 1 = t.val % 8
    ∧ win0_8.index t 0 = 0 ∧ win0_8.index t 1 = 0
    ∧ win0_9.index t 0 = 0 ∧ win0_9.index t 1 = t.val % 8
    ∧ win0_10.index t 0 = t.val / 8 ∧ win0_10.index t 1 = t.val % 8 :=
  (by decide +kernel : ∀ t : Fin grid0.N,
    win0_0.index t 0 = t.val / 8 ∧ win0_0.index t 1 = 0
    ∧ win0_1.index t 0 = t.val % 8 ∧ win0_1.index t 1 = 0
    ∧ win0_2.index t 0 = 0 ∧ win0_2.index t 1 = 0
    ∧ win0_3.index t 0 = t.val % 8 ∧ win0_3.index t 1 = 0
    ∧ win0_4.index t 0 = t.val % 8 ∧ win0_4.index t 1 = 0
    ∧ win0_5.index t 0 = 0 ∧ win0_5.index t 1 = 0
    ∧ win0_6.index t 0 = 0 ∧ win0_6.index t 1 = t.val % 8
    ∧ win0_7.index t 0 = 0 ∧ win0_7.index t 1 = t.val % 8
    ∧ win0_8.index t 0 = 0 ∧ win0_8.index t 1 = 0
    ∧ win0_9.index t 0 = 0 ∧ win0_9.index t 1 = t.val % 8
    ∧ win0_10.index t 0 = t.val / 8 ∧ win0_10.index t 1 = t.val % 8)

/-- Row b of row tile t / 8, as a row of x and of the result. -/
def rowOf (t : Fin cfg0.N) (b : Fin 512) : Fin 4096 :=
  ⟨512 * (t.val / 8) + b.val, by have := t.isLt; have hN : cfg0.N = 64 := N_0; have := b.isLt; omega⟩
/-- Column o of column tile t mod 8, as a column of a [1, 2048] row and of the result. -/
def colOf (t : Fin cfg0.N) (o : Fin 256) : Fin 2048 :=
  ⟨256 * (t.val % 8) + o.val, by have := o.isLt; omega⟩
/-- The same number as a row of a weight matrix: output feature o of column tile t mod 8. -/
abbrev tileOf (t : Fin cfg0.N) (o : Fin 256) : Fin 2048 := colOf t o

theorem rowOf_val (t : Fin cfg0.N) (b : Fin 512) : (rowOf t b).val = 512 * (t.val / 8) + b.val := rfl
theorem colOf_val (t : Fin cfg0.N) (o : Fin 256) : (colOf t o).val = 256 * (t.val % 8) + o.val := rfl

theorem iblk0_apply (c : Dev nD) (t : Fin cfg0.N) (a : Fin 512) (b : Fin 2048) :
    (iblk m c 0 t : Vec F S512x2048 .bf16) (ix2 a b) = (V m c main_v18 : Vec F S4096x2048 .bf16) (ix2 (rowOf t a) (b)) := by
  unfold iblk
  rw [View.read_apply]
  show V m c main_v18 _ = V m c main_v18 _
  congr 1
  funext d
  apply Fin.ext
  match d with
  | ⟨0, _⟩ => show win0_0.index t 0 * 512 + 1 * a.val = 512 * (t.val / 8) + a.val; rw [(idx_facts t).1]; omega
  | ⟨1, _⟩ => show win0_0.index t 1 * 2048 + 1 * b.val = b.val; rw [(idx_facts t).2.1]; omega

theorem iblk1_apply (c : Dev nD) (t : Fin cfg0.N) (a : Fin 256) (b : Fin 2048) :
    (iblk m c 1 t : Vec F S256x2048 .bf16) (ix2 a b) = (V m c main_v19 : Vec F S2048x2048 .bf16) (ix2 (tileOf t a) (b)) := by
  unfold iblk
  rw [View.read_apply]
  show V m c main_v19 _ = V m c main_v19 _
  congr 1
  funext d
  apply Fin.ext
  match d with
  | ⟨0, _⟩ => show win0_1.index t 0 * 256 + 1 * a.val = 256 * (t.val % 8) + a.val; rw [(idx_facts t).2.2.1]; omega
  | ⟨1, _⟩ => show win0_1.index t 1 * 2048 + 1 * b.val = b.val; rw [(idx_facts t).2.2.2.1]; omega

theorem iblk2_apply (c : Dev nD) (t : Fin cfg0.N) (a : Fin 2048) (b : Fin 2048) :
    (iblk m c 2 t : Vec F S2048x2048 .bf16) (ix2 a b) = (V m c main_v20 : Vec F S2048x2048 .bf16) (ix2 (a) (b)) := by
  unfold iblk
  rw [View.read_apply]
  show V m c main_v20 _ = V m c main_v20 _
  congr 1
  funext d
  apply Fin.ext
  match d with
  | ⟨0, _⟩ => show win0_2.index t 0 * 2048 + 1 * a.val = a.val; rw [(idx_facts t).2.2.2.2.1]; omega
  | ⟨1, _⟩ => show win0_2.index t 1 * 2048 + 1 * b.val = b.val; rw [(idx_facts t).2.2.2.2.2.1]; omega

theorem iblk3_apply (c : Dev nD) (t : Fin cfg0.N) (a : Fin 256) (b : Fin 2048) :
    (iblk m c 3 t : Vec F S256x2048 .bf16) (ix2 a b) = (V m c main_v21 : Vec F S2048x2048 .bf16) (ix2 (tileOf t a) (b)) := by
  unfold iblk
  rw [View.read_apply]
  show V m c main_v21 _ = V m c main_v21 _
  congr 1
  funext d
  apply Fin.ext
  match d with
  | ⟨0, _⟩ => show win0_3.index t 0 * 256 + 1 * a.val = 256 * (t.val % 8) + a.val; rw [(idx_facts t).2.2.2.2.2.2.1]; omega
  | ⟨1, _⟩ => show win0_3.index t 1 * 2048 + 1 * b.val = b.val; rw [(idx_facts t).2.2.2.2.2.2.2.1]; omega

theorem iblk4_apply (c : Dev nD) (t : Fin cfg0.N) (a : Fin 256) (b : Fin 2048) :
    (iblk m c 4 t : Vec F S256x2048 .bf16) (ix2 a b) = (V m c main_v22 : Vec F S2048x2048 .bf16) (ix2 (tileOf t a) (b)) := by
  unfold iblk
  rw [View.read_apply]
  show V m c main_v22 _ = V m c main_v22 _
  congr 1
  funext d
  apply Fin.ext
  match d with
  | ⟨0, _⟩ => show win0_4.index t 0 * 256 + 1 * a.val = 256 * (t.val % 8) + a.val; rw [(idx_facts t).2.2.2.2.2.2.2.2.1]; omega
  | ⟨1, _⟩ => show win0_4.index t 1 * 2048 + 1 * b.val = b.val; rw [(idx_facts t).2.2.2.2.2.2.2.2.2.1]; omega

theorem iblk5_apply (c : Dev nD) (t : Fin cfg0.N) (a : Fin 1) (b : Fin 2048) :
    (iblk m c 5 t : Vec F S1x2048 .f32) (ix2 a b) = (V m c main_arg1 : Vec F S1x2048 .f32) (ix2 (a) (b)) := by
  unfold iblk
  rw [View.read_apply]
  show V m c main_arg1 _ = V m c main_arg1 _
  congr 1
  funext d
  apply Fin.ext
  match d with
  | ⟨0, _⟩ => show win0_5.index t 0 * 1 + 1 * a.val = a.val; rw [(idx_facts t).2.2.2.2.2.2.2.2.2.2.1]; omega
  | ⟨1, _⟩ => show win0_5.index t 1 * 2048 + 1 * b.val = b.val; rw [(idx_facts t).2.2.2.2.2.2.2.2.2.2.2.1]; omega

theorem iblk6_apply (c : Dev nD) (t : Fin cfg0.N) (a : Fin 1) (b : Fin 256) :
    (iblk m c 6 t : Vec F S1x256 .f32) (ix2 a b) = (V m c main_arg1 : Vec F S1x2048 .f32) (ix2 (a) (colOf t b)) := by
  unfold iblk
  rw [View.read_apply]
  show V m c main_arg1 _ = V m c main_arg1 _
  congr 1
  funext d
  apply Fin.ext
  match d with
  | ⟨0, _⟩ => show win0_6.index t 0 * 1 + 1 * a.val = a.val; rw [(idx_facts t).2.2.2.2.2.2.2.2.2.2.2.2.1]; omega
  | ⟨1, _⟩ => show win0_6.index t 1 * 256 + 1 * b.val = 256 * (t.val % 8) + b.val; rw [(idx_facts t).2.2.2.2.2.2.2.2.2.2.2.2.2.1]; omega

theorem iblk7_apply (c : Dev nD) (t : Fin cfg0.N) (a : Fin 1) (b : Fin 256) :
    (iblk m c 7 t : Vec F S1x256 .f32) (ix2 a b) = (V m c main_v10 : Vec F S1x2048 .f32) (ix2 (a) (colOf t b)) := by
  unfold iblk
  rw [View.read_apply]
  show V m c main_v10 _ = V m c main_v10 _
  congr 1
  funext d
  apply Fin.ext
  match d with
  | ⟨0, _⟩ => show win0_7.index t 0 * 1 + 1 * a.val = a.val; rw [(idx_facts t).2.2.2.2.2.2.2.2.2.2.2.2.2.2.1]; omega
  | ⟨1, _⟩ => show win0_7.index t 1 * 256 + 1 * b.val = 256 * (t.val % 8) + b.val; rw [(idx_facts t).2.2.2.2.2.2.2.2.2.2.2.2.2.2.2.1]; omega

theorem iblk8_apply (c : Dev nD) (t : Fin cfg0.N) (a : Fin 1) (b : Fin 2048) :
    (iblk m c 8 t : Vec F S1x2048 .f32) (ix2 a b) = (V m c main_v15 : Vec F S1x2048 .f32) (ix2 (a) (b)) := by
  unfold iblk
  rw [View.read_apply]
  show V m c main_v15 _ = V m c main_v15 _
  congr 1
  funext d
  apply Fin.ext
  match d with
  | ⟨0, _⟩ => show win0_8.index t 0 * 1 + 1 * a.val = a.val; rw [(idx_facts t).2.2.2.2.2.2.2.2.2.2.2.2.2.2.2.2.1]; omega
  | ⟨1, _⟩ => show win0_8.index t 1 * 2048 + 1 * b.val = b.val; rw [(idx_facts t).2.2.2.2.2.2.2.2.2.2.2.2.2.2.2.2.2.1]; omega

theorem iblk9_apply (c : Dev nD) (t : Fin cfg0.N) (a : Fin 1) (b : Fin 256) :
    (iblk m c 9 t : Vec F S1x256 .f32) (ix2 a b) = (V m c main_v17 : Vec F S1x2048 .f32) (ix2 (a) (colOf t b)) := by
  unfold iblk
  rw [View.read_apply]
  show V m c main_v17 _ = V m c main_v17 _
  congr 1
  funext d
  apply Fin.ext
  match d with
  | ⟨0, _⟩ => show win0_9.index t 0 * 1 + 1 * a.val = a.val; rw [(idx_facts t).2.2.2.2.2.2.2.2.2.2.2.2.2.2.2.2.2.2.1]; omega
  | ⟨1, _⟩ => show win0_9.index t 1 * 256 + 1 * b.val = 256 * (t.val % 8) + b.val; rw [(idx_facts t).2.2.2.2.2.2.2.2.2.2.2.2.2.2.2.2.2.2.2.1]; omega

end Cert.KernelIdeal.Hand

end
-- ==== Proof.PayloadIdx.lean ====
/-
  The arithmetic of one grid point of the GRU kernel, read entry by entry on the extended reals.

  At a grid point the body holds a tile of x (512 rows, all 2048 input features), rows of the
  weight matrices, the state row h and bias rows, and forms from them

      r-tile  = σ(x · Wrᵀ + row)                     (512 × 2048, every feature)
      z-tile  = σ(x · Wzᵀ + row)                     (512 × 256, the features of this column block)
      ĥ-tile  = tanh((x · Whᵀ + (r ⊙ h) · Uhᵀ) + row)
      1 − z,  and  (1 − z) · h + z · ĥ.

  Every matrix product contracts the LAST axis of both operands: its entry (b, o) is the sum over
  k of l(b, k) · r(o, k), row b of the left operand against row o of the right one.  A change of
  shape to the same shape is the identity, a row [1, n] broadcast over m rows reads the row, a
  change of float format is the identity on the extended reals, and the pointwise operations act
  entry by entry.  The lemmas below say exactly this, for variables of the literal tile shapes and
  explicit coordinates (b, o).
-/
import proofs.«151567_j5050881540410_2_alg».proof.Proof.Gen.KernelIdeal.Skeleton
import proofs.«151567_j5050881540410_2_alg».proof.Proof.GruSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-! ## The two matrix products -/

/-- On the row axis of the left operand the operand index of the product of a 512 × 2048 tile with all 2048 rows of a weight matrix reads the entry's row. -/
theorem lhsA_0 (j : S512x2048.Idx) (q : dot_S512x2048_S2048x2048_S512x2048_1_1_0_0_n_n.contr.Idx) :
    (dot_S512x2048_S2048x2048_S512x2048_1_1_0_0_n_n.lhsIdx j q 0).val = (j 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl

/-- On the row axis of the right operand the operand index of the product of a 512 × 2048 tile with all 2048 rows of a weight matrix reads the entry's column:
    the right operand is used transposed. -/
theorem rhsA_0 (j : S512x2048.Idx) (q : dot_S512x2048_S2048x2048_S512x2048_1_1_0_0_n_n.contr.Idx) :
    (dot_S512x2048_S2048x2048_S512x2048_1_1_0_0_n_n.rhsIdx j q 0).val = (j 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl

/-- the product of a 512 × 2048 tile with all 2048 rows of a weight matrix, both operands contracted along their last axis, into the zero accumulator: the entry
    (b, o) is the sum over k of l(b, k) · r(o, k), row b of l against row o of r. -/
theorem matmulA_apply (l : FVec Ideal S512x2048 .bf16) (r : FVec Ideal S2048x2048 .bf16) (b : Fin 512) (o : Fin 2048) :
    matmul (F := Ideal) dot_S512x2048_S2048x2048_S512x2048_1_1_0_0_n_n none l r (constant (F := Ideal) S512x2048 .f32 0x00000000#32) (ix2 b o)
      = ∑ k : Fin 2048, l (ix2 b k) * r (ix2 o k) := by
  simp only [matmul]
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 b o) ((contrEquiv1 dot_S512x2048_S2048x2048_S512x2048_1_1_0_0_n_n 2048 rfl rfl).symm k) = ix2 b k := funext fun a => Fin.ext (by
    match a with
    | ⟨0, _⟩ => exact lhsA_0 _ _
    | ⟨1, _⟩ => exact (dot_S512x2048_S2048x2048_S512x2048_1_1_0_0_n_n.lhsIdx_val_of_single rfl _ _).trans hk)
  have er : dot_S512x2048_S2048x2048_S512x2048_1_1_0_0_n_n.rhsIdx (ix2 b o) ((contrEquiv1 dot_S512x2048_S2048x2048_S512x2048_1_1_0_0_n_n 2048 rfl rfl).symm k) = ix2 o k := funext fun a => Fin.ext (by
    match a with
    | ⟨0, _⟩ => exact rhsA_0 _ _
    | ⟨1, _⟩ => exact (dot_S512x2048_S2048x2048_S512x2048_1_1_0_0_n_n.rhsIdx_val_of_single rfl _ _).trans hk)
  rw [el, er]

/-- On the row axis of the left operand the operand index of the product of a 512 × 2048 tile with 256 rows of a weight matrix reads the entry's row. -/
theorem lhsB_0 (j : S512x256.Idx) (q : dot_S512x2048_S256x2048_S512x256_1_1_0_0_n_n.contr.Idx) :
    (dot_S512x2048_S256x2048_S512x256_1_1_0_0_n_n.lhsIdx j q 0).val = (j 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl

/-- On the row axis of the right operand the operand index of the product of a 512 × 2048 tile with 256 rows of a weight matrix reads the entry's column:
    the right operand is used transposed. -/
theorem rhsB_0 (j : S512x256.Idx) (q : dot_S512x2048_S256x2048_S512x256_1_1_0_0_n_n.contr.Idx) :
    (dot_S512x2048_S256x2048_S512x256_1_1_0_0_n_n.rhsIdx j q 0).val = (j 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl

/-- the product of a 512 × 2048 tile with 256 rows of a weight matrix, both operands contracted along their last axis, into the zero accumulator: the entry
    (b, o) is the sum over k of l(b, k) · r(o, k), row b of l against row o of r. -/
theorem matmulB_apply (l : FVec Ideal S512x2048 .bf16) (r : FVec Ideal S256x2048 .bf16) (b : Fin 512) (o : Fin 256) :
    matmul (F := Ideal) dot_S512x2048_S256x2048_S512x256_1_1_0_0_n_n none l r (constant (F := Ideal) S512x256 .f32 0x00000000#32) (ix2 b o)
      = ∑ k : Fin 2048, l (ix2 b k) * r (ix2 o k) := by
  simp only [matmul]
  rw [Ideal.matmul_constant_zero_apply, ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 b o) ((contrEquiv1 dot_S512x2048_S256x2048_S512x256_1_1_0_0_n_n 2048 rfl rfl).symm k) = ix2 b k := funext fun a => Fin.ext (by
    match a with
    | ⟨0, _⟩ => exact lhsB_0 _ _
    | ⟨1, _⟩ => exact (dot_S512x2048_S256x2048_S512x256_1_1_0_0_n_n.lhsIdx_val_of_single rfl _ _).trans hk)
  have er : dot_S512x2048_S256x2048_S512x256_1_1_0_0_n_n.rhsIdx (ix2 b o) ((contrEquiv1 dot_S512x2048_S256x2048_S512x256_1_1_0_0_n_n 2048 rfl rfl).symm k) = ix2 o k := funext fun a => Fin.ext (by
    match a with
    | ⟨0, _⟩ => exact rhsB_0 _ _
    | ⟨1, _⟩ => exact (dot_S512x2048_S256x2048_S512x256_1_1_0_0_n_n.rhsIdx_val_of_single rfl _ _).trans hk)
  rw [el, er]

/-! ## The tiles the body forms, at an entry -/

/-- The reset gate's tile: σ(x · Wrᵀ + row), at row b and feature o. -/
theorem pay3_apply (v0 : Vec Ideal S512x2048 .bf16) (v38 : Vec Ideal S2048x2048 .bf16) (v41 : Vec Ideal S1x2048 .f32)
    (b : Fin 512) (o : Fin 2048) :
    k0_pay3 (F := Ideal) v0 v38 v41 (ix2 b o)
      = Ideal.logistic ((∑ k : Fin 2048, v0 (ix2 b k) * v38 (ix2 o k)) + v41 (ix2 0 o)) := by
  unfold k0_pay3 k0_pay2
  simp only [shapeCast_self]
  show Ideal.logistic (matmul (F := Ideal) dot_S512x2048_S2048x2048_S512x2048_1_1_0_0_n_n none v0 v38 (constant (F := Ideal) S512x2048 .f32 0x00000000#32) (ix2 b o)
    + broadcastTo S512x2048 v41 broadcasts_S1x2048_S512x2048 (ix2 b o)) = _
  exact congrArg Ideal.logistic (congrArg₂ (· + ·) (matmulA_apply v0 v38 b o)
    (broadcastTo_1b_ab_apply v41 broadcasts_S1x2048_S512x2048 b o))

/-- The update gate's tile: σ(x · Wzᵀ + row), at row b and feature o of the column block. -/
theorem pay4_apply (v0 : Vec Ideal S512x2048 .bf16) (v5 : Vec Ideal S256x2048 .bf16) (v8 : Vec Ideal S1x256 .f32)
    (b : Fin 512) (o : Fin 256) :
    k0_pay4 (F := Ideal) v0 v5 v8 (ix2 b o)
      = Ideal.logistic ((∑ k : Fin 2048, v0 (ix2 b k) * v5 (ix2 o k)) + v8 (ix2 0 o)) := by
  unfold k0_pay4 k0_pay2
  simp only [shapeCast_self]
  show Ideal.logistic (matmul (F := Ideal) dot_S512x2048_S256x2048_S512x256_1_1_0_0_n_n none v0 v5 (constant (F := Ideal) S512x256 .f32 0x00000000#32) (ix2 b o)
    + broadcastTo S512x256 v8 broadcasts_S1x256_S512x256 (ix2 b o)) = _
  exact congrArg Ideal.logistic (congrArg₂ (· + ·) (matmulB_apply v0 v5 b o)
    (broadcastTo_1b_ab_apply v8 broadcasts_S1x256_S512x256 b o))

/-- The candidate state's tile: tanh((x · Whᵀ + (r ⊙ h) · Uhᵀ) + row), at row b and feature o of the
    column block; r is the stored reset-gate tile and h the state row. -/
theorem pay5_apply (v0 : Vec Ideal S512x2048 .bf16) (v13 : Vec Ideal S1x2048 .f32) (v14 : Vec Ideal S512x2048 .f32)
    (v18 v20 : Vec Ideal S256x2048 .bf16) (v25 : Vec Ideal S1x256 .f32) (b : Fin 512) (o : Fin 256) :
    k0_pay5 (F := Ideal) v0 v13 v14 v18 v20 v25 (ix2 b o)
      = Ideal.tanh (((∑ k : Fin 2048, v0 (ix2 b k) * v18 (ix2 o k))
          + ∑ k : Fin 2048, (v14 (ix2 b k) * v13 (ix2 0 k)) * v20 (ix2 o k)) + v25 (ix2 0 o)) := by
  unfold k0_pay5 k0_pay2
  simp only [shapeCast_self]
  show Ideal.tanh ((matmul (F := Ideal) dot_S512x2048_S256x2048_S512x256_1_1_0_0_n_n none v0 v18 (constant (F := Ideal) S512x256 .f32 0x00000000#32) (ix2 b o)
    + matmul (F := Ideal) dot_S512x2048_S256x2048_S512x256_1_1_0_0_n_n none
        (truncf .bf16 (mulf v14 (broadcastTo S512x2048 v13 broadcasts_S1x2048_S512x2048)) bitsLt_bf16_f32)
        v20 (constant (F := Ideal) S512x256 .f32 0x00000000#32) (ix2 b o))
    + broadcastTo S512x256 v25 broadcasts_S1x256_S512x256 (ix2 b o)) = _
  have e2 : matmul (F := Ideal) dot_S512x2048_S256x2048_S512x256_1_1_0_0_n_n none
        (truncf .bf16 (mulf v14 (broadcastTo S512x2048 v13 broadcasts_S1x2048_S512x2048)) bitsLt_bf16_f32)
        v20 (constant (F := Ideal) S512x256 .f32 0x00000000#32) (ix2 b o)
      = ∑ k : Fin 2048, (v14 (ix2 b k) * v13 (ix2 0 k)) * v20 (ix2 o k) :=
    (matmulB_apply _ v20 b o).trans (Finset.sum_congr rfl fun k _ => by
      show (v14 (ix2 b k) * broadcastTo S512x2048 v13 broadcasts_S1x2048_S512x2048 (ix2 b k)) * v20 (ix2 o k) = _
      rw [broadcastTo_1b_ab_apply v13 broadcasts_S1x2048_S512x2048 b k])
  exact congrArg Ideal.tanh (congrArg₂ (· + ·) (congrArg₂ (· + ·) (matmulB_apply v0 v18 b o) e2)
    (broadcastTo_1b_ab_apply v25 broadcasts_S1x256_S512x256 b o))

/-- The tile of 1 − z: the word of 1.0 minus the update gate, entry by entry. -/
theorem pay6_apply (v0 : Vec Ideal S512x2048 .bf16) (v5 : Vec Ideal S256x2048 .bf16) (v8 : Vec Ideal S1x256 .f32)
    (b : Fin 512) (o : Fin 256) :
    k0_pay6 (F := Ideal) v0 v5 v8 (ix2 b o) = Cert.GruSpec.one - k0_pay4 (F := Ideal) v0 v5 v8 (ix2 b o) := by
  unfold k0_pay6
  rfl

/-- The output tile: (1 − z) · h + z · ĥ at row b and feature o of the column block, from the
    tiles of z (v12), ĥ (v29), 1 − z (v32) and the state row's tile (v30). -/
theorem pay1_apply (v12 v29 : FVec Ideal S512x256 .f32) (v30 : Vec Ideal S1x256 .f32) (v32 : FVec Ideal S512x256 .f32)
    (b : Fin 512) (o : Fin 256) :
    k0_pay1 (F := Ideal) v12 v29 v30 v32 (ix2 b o)
      = v32 (ix2 b o) * v30 (ix2 0 o) + v12 (ix2 b o) * v29 (ix2 b o) := by
  unfold k0_pay1
  show v32 (ix2 b o) * broadcastTo S512x256 v30 broadcasts_S1x256_S512x256 (ix2 b o) + v12 (ix2 b o) * v29 (ix2 b o) = _
  rw [broadcastTo_1b_ab_apply v30 broadcasts_S1x256_S512x256 b o]

end Cert.KernelIdeal.Hand

end
-- ==== Proof.EntryVals.lean ====
/-
  What the region finds in the arrays the host operations wrote, on the extended reals.

  Before the region the program changes the float format of x and of the four weight matrices the
  windows read (Wz, Wr, Wh, Uh): on the extended reals a change of format is the identity, so the
  region finds these arrays as launched.  It also forms three bias rows of shape [1, 2048]:

      for the update gate   ((h · Uzᵀ + bwz) + buz) + b_z,
      for the reset gate    ((h · Urᵀ + bwr) + bur) + b_r,
      for the candidate     (bwh + buh) + b_h,

  where h · Uᵀ is computed as the product of the row h with the transposed matrix, contracting the
  row's second axis with the transposed matrix's first: its entry o is the sum over k of
  h(0, k) · U(o, k); and each bias vector of length 2048 is first viewed as a row [1, 2048].
-/
import proofs.«151567_j5050881540410_2_alg».proof.Proof.Entry
import proofs.«151567_j5050881540410_2_alg».proof.Proof.GruSpec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.Hand

open Idealize.ShloMosaic Idealize.ShloMosaic.ValueIdx Idealize.ShloMosaic.TcCoe
open Cert.KernelIdeal Cert.KernelIdeal.Gen

variable (m : (ℓ : Loc nD τ sig) → Buf (Elt Ideal) ℓ)

/-! ## The one-row product of the host -/

/-- On the left operand's row axis the operand index reads the entry's row. -/
theorem lhsH_0 (j : S1x2048.Idx) (q : dot_S1x2048_S2048x2048_S1x2048_1_0_0_1_n_n.contr.Idx) :
    (dot_S1x2048_S2048x2048_S1x2048_1_0_0_1_n_n.lhsIdx j q 0).val = (j 0).val := by
  unfold DotDims.lhsIdx
  rw [dif_neg (show ¬(0 : Fin S1x2048.rank) ∈ dot_S1x2048_S2048x2048_S1x2048_1_0_0_1_n_n.lhsBatch by decide), dif_pos (show (0 : Fin S1x2048.rank) ∈ dot_S1x2048_S2048x2048_S1x2048_1_0_0_1_n_n.lhsNonContracting by decide)]
  rfl

/-- On the right operand's column axis the operand index reads the entry's column. -/
theorem rhsH_1 (j : S1x2048.Idx) (q : dot_S1x2048_S2048x2048_S1x2048_1_0_0_1_n_n.contr.Idx) :
    (dot_S1x2048_S2048x2048_S1x2048_1_0_0_1_n_n.rhsIdx j q 1).val = (j 1).val := by
  unfold DotDims.rhsIdx
  rw [dif_neg (show ¬(1 : Fin S2048x2048.rank) ∈ dot_S1x2048_S2048x2048_S1x2048_1_0_0_1_n_n.rhsBatch by decide), dif_pos (show (1 : Fin S2048x2048.rank) ∈ dot_S1x2048_S2048x2048_S1x2048_1_0_0_1_n_n.rhsNonContracting by decide)]
  rfl

/-- The product of a row [1, 2048] with a matrix [2048, 2048], the row's second axis contracted with
    the matrix's first: the entry (0, o) is the sum over k of l(0, k) · r(k, o). -/
theorem hostDot_apply (l : FVec Ideal S1x2048 .f32) (r : FVec Ideal S2048x2048 .f32) (o : Fin 2048) :
    Host.dotGeneral (F := Ideal) dot_S1x2048_S2048x2048_S1x2048_1_0_0_1_n_n none l r (ix2 0 o) = ∑ k : Fin 2048, l (ix2 0 k) * r (ix2 k o) := by
  simp only [Host.dotGeneral]
  rw [Ideal.dotGeneral_apply, ← Equiv.sum_comp (contrEquiv1 dot_S1x2048_S2048x2048_S1x2048_1_0_0_1_n_n 2048 rfl rfl).symm]
  refine Finset.sum_congr rfl fun k _ => ?_
  have hk := contrEquiv1_symm_val dot_S1x2048_S2048x2048_S1x2048_1_0_0_1_n_n 2048 rfl rfl k
  have el : dot_S1x2048_S2048x2048_S1x2048_1_0_0_1_n_n.lhsIdx (ix2 0 o) ((contrEquiv1 dot_S1x2048_S2048x2048_S1x2048_1_0_0_1_n_n 2048 rfl rfl).symm k) = ix2 0 k := funext fun a => Fin.ext (by
    match a with
    | ⟨0, _⟩ => exact lhsH_0 _ _
    | ⟨1, _⟩ => exact (dot_S1x2048_S2048x2048_S1x2048_1_0_0_1_n_n.lhsIdx_val_of_single rfl _ _).trans hk)
  have er : dot_S1x2048_S2048x2048_S1x2048_1_0_0_1_n_n.rhsIdx (ix2 0 o) ((contrEquiv1 dot_S1x2048_S2048x2048_S1x2048_1_0_0_1_n_n 2048 rfl rfl).symm k) = ix2 k o := funext fun a => Fin.ext (by
    match a with
    | ⟨0, _⟩ => exact (dot_S1x2048_S2048x2048_S1x2048_1_0_0_1_n_n.rhsIdx_val_of_single rfl _ _).trans hk
    | ⟨1, _⟩ => exact rhsH_1 _ _)
  rw [el, er]

/-! ## The bias rows as the host forms them -/

/-- A gate's bias row as the host forms it: the row h times the transposed matrix, then the two
    bias vectors viewed as rows, then the bias row, added in that order. -/
def hostGateRow (h : FVec Ideal S1x2048 .f32) (U : FVec Ideal S2048x2048 .f32) (bw bu : FVec Ideal S2048 .f32)
    (bb : FVec Ideal S1x2048 .f32) : FVec Ideal S1x2048 .f32 :=
  addf (addf (addf
    (Host.dotGeneral (F := Ideal) dot_S1x2048_S2048x2048_S1x2048_1_0_0_1_n_n none h (transpose S2048x2048 [1, 0] U transposes_S2048x2048_S2048x2048_1_0))
    (shapeCast S1x2048 bw shapeCasts_S2048_S1x2048)) (shapeCast S1x2048 bu shapeCasts_S2048_S1x2048)) bb

/-- The candidate's bias row as the host forms it: the two bias vectors viewed as rows, added, then
    the bias row. -/
def hostCandRow (bw bu : FVec Ideal S2048 .f32) (bb : FVec Ideal S1x2048 .f32) : FVec Ideal S1x2048 .f32 :=
  addf (addf (shapeCast S1x2048 bw shapeCasts_S2048_S1x2048) (shapeCast S1x2048 bu shapeCasts_S2048_S1x2048)) bb

/-- The host's gate row at feature o is the specification's: ((h · Uᵀ + bw) + bu) + b at o. -/
theorem hostGateRow_apply (h : FVec Ideal S1x2048 .f32) (U : FVec Ideal S2048x2048 .f32) (bw bu : FVec Ideal S2048 .f32)
    (bb : FVec Ideal S1x2048 .f32) (o : Fin 2048) :
    hostGateRow h U bw bu bb (ix2 0 o) = Cert.GruSpec.gateRow h U bw bu bb o := by
  unfold hostGateRow Cert.GruSpec.gateRow Cert.GruSpec.dotRows
  show ((Host.dotGeneral (F := Ideal) dot_S1x2048_S2048x2048_S1x2048_1_0_0_1_n_n none h (transpose S2048x2048 [1, 0] U transposes_S2048x2048_S2048x2048_1_0) (ix2 0 o)
      + shapeCast S1x2048 bw shapeCasts_S2048_S1x2048 (ix2 0 o)) + shapeCast S1x2048 bu shapeCasts_S2048_S1x2048 (ix2 0 o))
      + bb (ix2 0 o) = _
  rw [hostDot_apply, shapeCast_a_1a_apply bw shapeCasts_S2048_S1x2048 0 o, shapeCast_a_1a_apply bu shapeCasts_S2048_S1x2048 0 o]
  refine congrArg (fun s => ((s + bw (ix1 o)) + bu (ix1 o)) + bb (ix2 0 o)) (Finset.sum_congr rfl fun k _ => ?_)
  rw [transpose_ix2_apply U transposes_S2048x2048_S2048x2048_1_0 k o]

/-- The host's candidate row at feature o is the specification's: (bwh + buh) + b_h at o. -/
theorem hostCandRow_apply (bw bu : FVec Ideal S2048 .f32) (bb : FVec Ideal S1x2048 .f32) (o : Fin 2048) :
    hostCandRow bw bu bb (ix2 0 o) = Cert.GruSpec.candRow bw bu bb o := by
  unfold hostCandRow Cert.GruSpec.candRow
  show (shapeCast S1x2048 bw shapeCasts_S2048_S1x2048 (ix2 0 o) + shapeCast S1x2048 bu shapeCasts_S2048_S1x2048 (ix2 0 o))
      + bb (ix2 0 o) = _
  rw [shapeCast_a_1a_apply bw shapeCasts_S2048_S1x2048 0 o, shapeCast_a_1a_apply bu shapeCasts_S2048_S1x2048 0 o]

/-! ## The arrays the region finds -/

section Found
open Idealize.ShloMosaic.StableHlo

/-- x in the narrower float format is x. -/
theorem V_main_v18 (c : Dev nD) :
    (V m c main_v18 : S4096x2048.Idx → EReal) = m ((c : Thread nD τ).loc main_arg0) := by
  dsimp only [V, hostOps0]
  after_results_simp
  rfl

/-- Wz in the narrower float format is Wz. -/
theorem V_main_v19 (c : Dev nD) :
    (V m c main_v19 : S2048x2048.Idx → EReal) = m ((c : Thread nD τ).loc main_arg2) := by
  dsimp only [V, hostOps0]
  after_results_simp
  rfl

/-- Wr in the narrower float format is Wr. -/
theorem V_main_v20 (c : Dev nD) :
    (V m c main_v20 : S2048x2048.Idx → EReal) = m ((c : Thread nD τ).loc main_arg6) := by
  dsimp only [V, hostOps0]
  after_results_simp
  rfl

/-- Wh in the narrower float format is Wh. -/
theorem V_main_v21 (c : Dev nD) :
    (V m c main_v21 : S2048x2048.Idx → EReal) = m ((c : Thread nD τ).loc main_arg10) := by
  dsimp only [V, hostOps0]
  after_results_simp
  rfl

/-- Uh in the narrower float format is Uh. -/
theorem V_main_v22 (c : Dev nD) :
    (V m c main_v22 : S2048x2048.Idx → EReal) = m ((c : Thread nD τ).loc main_arg12) := by
  dsimp only [V, hostOps0]
  after_results_simp
  rfl

/-- The update gate's bias row as the host forms it from h, Uz, bwz, buz, b_z. -/
theorem V_main_v10_eq (c : Dev nD) :
    (V m c main_v10 : S1x2048.Idx → EReal) = hostGateRow (m ((c : Thread nD τ).loc main_arg1)) (m ((c : Thread nD τ).loc main_arg4)) (m ((c : Thread nD τ).loc main_arg3)) (m ((c : Thread nD τ).loc main_arg5)) (m ((c : Thread nD τ).loc main_arg14)) := by
  dsimp only [V, hostOps0]
  after_results_simp
  rfl

/-- The reset gate's bias row as the host forms it from h, Ur, bwr, bur, b_r. -/
theorem V_main_v15_eq (c : Dev nD) :
    (V m c main_v15 : S1x2048.Idx → EReal) = hostGateRow (m ((c : Thread nD τ).loc main_arg1)) (m ((c : Thread nD τ).loc main_arg8)) (m ((c : Thread nD τ).loc main_arg7)) (m ((c : Thread nD τ).loc main_arg9)) (m ((c : Thread nD τ).loc main_arg15)) := by
  dsimp only [V, hostOps0]
  after_results_simp
  rfl

/-- The candidate's bias row as the host forms it from bwh, buh, b_h. -/
theorem V_main_v17_eq (c : Dev nD) :
    (V m c main_v17 : S1x2048.Idx → EReal) = hostCandRow (m ((c : Thread nD τ).loc main_arg11)) (m ((c : Thread nD τ).loc main_arg13)) (m ((c : Thread nD τ).loc main_arg16)) := by
  dsimp only [V, hostOps0]
  after_results_simp
  rfl

end Found

/-- The update gate's bias row, at feature o, in the specification's words. -/
theorem V_main_v10_apply (c : Dev nD) (o : Fin 2048) :
    V m c main_v10 (ix2 0 o) = Cert.GruSpec.gateRow (m ((c : Thread nD τ).loc main_arg1)) (m ((c : Thread nD τ).loc main_arg4)) (m ((c : Thread nD τ).loc main_arg3)) (m ((c : Thread nD τ).loc main_arg5)) (m ((c : Thread nD τ).loc main_arg14)) o :=
  (congrFun (V_main_v10_eq m c) (ix2 0 o)).trans (hostGateRow_apply _ _ _ _ _ o)

/-- The reset gate's bias row, at feature o, in the specification's words. -/
theorem V_main_v15_apply (c : Dev nD) (o : Fin 2048) :
    V m c main_v15 (ix2 0 o) = Cert.GruSpec.gateRow (m ((c : Thread nD τ).loc main_arg1)) (m ((c : Thread nD τ).loc main_arg8)) (m ((c : Thread nD τ).loc main_arg7)) (m ((c : Thread nD τ).loc main_arg9)) (m ((c : Thread nD τ).loc main_arg15)) o :=
  (congrFun (V_main_v15_eq m c) (ix2 0 o)).trans (hostGateRow_apply _ _ _ _ _ o)

/-- The candidate's bias row, at feature o, in the specification's words. -/
theorem V_main_v17_apply (c : Dev nD) (o : Fin 2048) :
    V m c main_v17 (ix2 0 o) = Cert.GruSpec.candRow (m ((c : Thread nD τ).loc main_arg11)) (m ((c : Thread nD τ).loc main_arg13)) (m ((c : Thread nD τ).loc main_arg16)) o :=
  (congrFun (V_main_v17_eq m c) (ix2 0 o)).trans (hostCandRow_apply _ _ _ o)

end Cert.KernelIdeal.Hand

end
-- ==== Proof.CellValue.lean ====
/-
  What the kernel's result array holds at the end, on the extended reals: the GRU cell of the
  argument arrays, in the arrangement that first sums the state's contribution and the biases
  into one row.

  The scratch block after point t holds the reset gate of row tile t / 8 at all 2048 features:
  a point with j = 0 stores σ(x·Wrᵀ + row) there, and the later points of the row tile leave it,
  so by induction on the point it is the gate of the point's own row tile.  The output tile's
  buffer after point t holds (1 − z)·h + z·ĥ at rows 512·(t / 8) … and columns 256·(t mod 8) …,
  the candidate ĥ computed from the scratch.  Every point writes its tile back, the 64 tiles are
  the 8 × 8 blocks of the result, so they cover it, and the result is the cell at every entry.
-/
import proofs.«151567_j5050881540410_2_alg».proof.Proof.CellFrame
import proofs.«151567_j5050881540410_2_alg».proof.Proof.Blocks
import proofs.«151567_j5050881540410_2_alg».proof.Proof.PayloadIdx
import proofs.«151567_j5050881540410_2_alg».proof.Proof.EntryVals
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The cell of core c's argument arrays. -/
abbrev cell (c : Dev nD) : Cert.GruSpec.Mat 4096 2048 :=
  Cert.GruSpec.cellK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The reset gate of core c's argument arrays at row r and feature k. -/
abbrev rG (c : Dev nD) (r : Fin 4096) (k : Fin 2048) : EReal :=
  Cert.GruSpec.gateK (m ((c : Thread nD τ).loc main_arg0)) (m ((c : Thread nD τ).loc main_arg1)) (m ((c : Thread nD τ).loc main_arg6)) (m ((c : Thread nD τ).loc main_arg8)) (m ((c : Thread nD τ).loc main_arg7)) (m ((c : Thread nD τ).loc main_arg9)) (m ((c : Thread nD τ).loc main_arg15)) r k

/-! ## What one point leaves, as the body's arithmetic of the point's blocks -/

theorem scrA_eq (c : Dev nD) (t : Fin cfg0.N) (hc : cond0 (grid0.coords t)) :
    scrA m c t hc = k0_pay3 (F := Ideal) (iblk m c 0 t) (iblk m c 2 t) (iblk m c 8 t) := by
  unfold scrA runA
  rw [View.read_writes_eq_canon _ _ _ (coverA_scr c _ _ _ _ _ _ _ _ _ _ _ _ _ _ _ _ _ _ _ _ _ _ _ _ _ _ _ _ _ _ _ _ _ _ _ _), runA_scr_eq, View.canon_unit_zero hz]

theorem outA_eq (c : Dev nD) (t : Fin cfg0.N) (hc : cond0 (grid0.coords t)) :
    outA m c t hc = k0_pay1 (F := Ideal) (k0_pay4 (F := Ideal) (iblk m c 0 t) (iblk m c 1 t) (iblk m c 7 t)) (k0_pay5 (F := Ideal) (iblk m c 0 t) (iblk m c 5 t) (k0_pay3 (F := Ideal) (iblk m c 0 t) (iblk m c 2 t) (iblk m c 8 t)) (iblk m c 3 t) (iblk m c 4 t) (iblk m c 9 t)) (iblk m c 6 t) (k0_pay6 (F := Ideal) (iblk m c 0 t) (iblk m c 1 t) (iblk m c 7 t)) := by
  unfold outA runA
  rw [View.read_writes_eq_canon _ _ _ (coverA_out c _ _ _ _ _ _ _ _ _ _ _ _ _ _ _ _ _ _ _ _ _ _ _ _ _ _ _ _ _ _ _ _ _ _ _ _), runA_out_eq, View.canon_unit_zero hz]

theorem outB_eq (c : Dev nD) (t : Fin cfg0.N) (hc : ¬cond0 (grid0.coords t)) (xs : Vec Ideal S512x2048 .f32) :
    outB m c t hc xs = k0_pay1 (F := Ideal) (k0_pay4 (F := Ideal) (iblk m c 0 t) (iblk m c 1 t) (iblk m c 7 t)) (k0_pay5 (F := Ideal) (iblk m c 0 t) (iblk m c 5 t) xs (iblk m c 3 t) (iblk m c 4 t) (iblk m c 9 t)) (iblk m c 6 t) (k0_pay6 (F := Ideal) (iblk m c 0 t) (iblk m c 1 t) (iblk m c 7 t)) := by
  unfold outB runB
  rw [View.read_writes_eq_canon _ _ _ (coverB_out c _ _ _ _ _ _ _ _ _ _ _ _ _ _ _ _ _ _ _ _ _ _ _ _ _ _ _ _ _ _ _ _ _ _ _ _ _), runB_out_eq, View.canon_unit_zero hz]

/-- At every point the output tile's buffer ends at the body's arithmetic of the point's blocks and
    of the scratch as the point leaves it. -/
theorem outsAt_fst (c : Dev nD) (t : Fin cfg0.N) :
    (outsAt m c t.val t.isLt).1 = k0_pay1 (F := Ideal) (k0_pay4 (F := Ideal) (iblk m c 0 t) (iblk m c 1 t) (iblk m c 7 t)) (k0_pay5 (F := Ideal) (iblk m c 0 t) (iblk m c 5 t) (outsAt m c t.val t.isLt).2 (iblk m c 3 t) (iblk m c 4 t) (iblk m c 9 t)) (iblk m c 6 t) (k0_pay6 (F := Ideal) (iblk m c 0 t) (iblk m c 1 t) (iblk m c 7 t)) := by
  by_cases h0 : t.val % 8 = 0
  · rw [outsAt_A m c t h0]; dsimp only; rw [outA_eq, scrA_eq]
  · rw [outsAt_B m c t h0]; dsimp only; rw [outB_eq]

/-! ## The scratch holds the reset gate of the point's row tile -/

theorem scrA_val (c : Dev nD) (t : Fin cfg0.N) (hc : cond0 (grid0.coords t)) (b : Fin 512) (k : Fin 2048) :
    scrA m c t hc (ix2 b k) = rG m c (rowOf t b) k := by
  rw [scrA_eq, pay3_apply]
  simp only [iblk0_apply, iblk2_apply, iblk8_apply]
  rw [V_main_v18 m c, V_main_v20 m c, V_main_v15_apply m c k]
  rfl

/-- At a point with j = 0 the scratch ends at the gate of the point's row tile; -/
theorem scr_at_A (c : Dev nD) (t : Fin cfg0.N) (h0 : t.val % 8 = 0) (b : Fin 512) (k : Fin 2048) :
    (outsAt m c t.val t.isLt).2 (ix2 b k) = rG m c (rowOf t b) k := by
  rw [outsAt_A m c t h0]
  dsimp only
  exact scrA_val m c t ((hcond0 t).mpr h0) b k

/-- at a later point of the row tile it is what the point before left. -/
theorem scr_at_B (c : Dev nD) (t : Fin cfg0.N) (h0 : ¬t.val % 8 = 0) (b : Fin 512) (k : Fin 2048) :
    (outsAt m c t.val t.isLt).2 (ix2 b k)
      = (outsAt m c (t.val - 1) (Nat.lt_of_le_of_lt (Nat.sub_le _ _) t.isLt)).2 (ix2 b k) := by
  rw [outsAt_B m c t h0]

/-- Two consecutive points of one row tile have the same rows. -/
theorem rowOf_pred (n : ℕ) (hn : n + 1 < cfg0.N) (h0 : ¬(n + 1) % 8 = 0) (b : Fin 512) :
    rowOf ⟨n, Nat.lt_of_succ_lt hn⟩ b = rowOf ⟨n + 1, hn⟩ b := by
  apply Fin.ext
  show 512 * (n / 8) + b.val = 512 * ((n + 1) / 8) + b.val
  omega

theorem scr_val (c : Dev nD) : ∀ (n : ℕ) (hn : n < cfg0.N) (b : Fin 512) (k : Fin 2048),
    (outsAt m c n hn).2 (ix2 b k) = rG m c (rowOf ⟨n, hn⟩ b) k
  | 0, hn, b, k => scr_at_A m c ⟨0, hn⟩ rfl b k
  | n + 1, hn, b, k => by
    by_cases h0 : (n + 1) % 8 = 0
    · exact scr_at_A m c ⟨n + 1, hn⟩ h0 b k
    · refine (scr_at_B m c ⟨n + 1, hn⟩ h0 b k).trans ?_
      refine (scr_val c n (Nat.lt_of_succ_lt hn) b k).trans ?_
      rw [rowOf_pred n hn h0 b]

/-! ## The output tile's buffer holds the cell at the point's rows and columns -/

theorem out_val (c : Dev nD) (t : Fin cfg0.N) (b : Fin 512) (o : Fin 256) :
    (outsAt m c t.val t.isLt).1 (ix2 b o)
      = Cert.GruSpec.cellKAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (rowOf t b) (colOf t o) := by
  rw [outsAt_fst, pay1_apply, pay6_apply, pay4_apply, pay5_apply]
  simp only [scr_val, iblk0_apply, iblk1_apply, iblk3_apply, iblk4_apply, iblk5_apply, iblk6_apply, iblk7_apply, iblk9_apply]
  rw [V_main_v18 m c, V_main_v19 m c, V_main_v21 m c, V_main_v22 m c, V_main_arg1 m c,
    V_main_v10_apply m c (colOf t o), V_main_v17_apply m c (colOf t o)]
  rfl

/-! ## From the tiles to the array -/

theorem mem_blk10 (t : Fin cfg0.N) (i : S4096x2048.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v23).slice (win0_10.rect t)).set ↔ _
  rw [View.set_slice_whole, Rect.mem_set_unit]
  exact Iff.rfl

/-- What point t writes back is tile t of the cell. -/
theorem flushed_eq (c : Dev nD) (t : Fin cfg0.N) :
    (dats m 0 c).flushed 10 t = ((cfg0.win 10).blk t).view.read (Elt Ideal) (cell m c) := by
  show (cfg0.win 10).cut (grid0.coords t) ((dats m 0 c).after 10 t) = _
  rw [after_10]
  funext j
  obtain ⟨b, o, rfl⟩ : ∃ (b : Fin 512) (o : Fin 256), j = ix2 b o := ⟨j 0, j 1, eq_ix2 j⟩
  show (outsAt m c t.val t.isLt).1 (ix2 b o) = cell m c (((cfg0.win 10).blk t).view.emb (ix2 b o))
  rw [out_val]
  show _ = Cert.GruSpec.cellKAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) ((((cfg0.win 10).blk t).view.emb (ix2 b o)) 0) ((((cfg0.win 10).blk t).view.emb (ix2 b o)) 1)
  have e0 : rowOf t b = (((cfg0.win 10).blk t).view.emb (ix2 b o)) 0 := by
    apply Fin.ext
    show 512 * (t.val / 8) + b.val = win0_10.index t 0 * 512 + 1 * b.val
    rw [(idx_facts t).2.2.2.2.2.2.2.2.2.2.2.2.2.2.2.2.2.2.2.2.1]; omega
  have e1 : colOf t o = (((cfg0.win 10).blk t).view.emb (ix2 b o)) 1 := by
    apply Fin.ext
    show 256 * (t.val % 8) + o.val = win0_10.index t 1 * 256 + 1 * o.val
    rw [(idx_facts t).2.2.2.2.2.2.2.2.2.2.2.2.2.2.2.2.2.2.2.2.2]; omega
  rw [e0, e1]

/-- Every entry of the result lies in the tile of the point 8·(row / 512) + column / 256. -/
theorem cover10 (i : S4096x2048.Idx) :
    ∃ t : Fin cfg0.N, (cfg0.win 10).flush t = true ∧ i ∈ ((cfg0.win 10).blk t).view.set := by
  have h0 : (i 0).val < 4096 := (i 0).isLt
  have h1 : (i 1).val < 2048 := (i 1).isLt
  have hN : cfg0.N = 64 := N_0
  refine ⟨⟨8 * ((i 0).val / 512) + (i 1).val / 256, by omega⟩, flush0_10 _, ?_⟩
  rw [mem_blk10]
  intro a
  match a with
  | ⟨0, _⟩ =>
    show win0_10.index _ 0 * 512 ≤ (i 0).val ∧ (i 0).val < win0_10.index _ 0 * 512 + 512
    rw [(idx_facts _).2.2.2.2.2.2.2.2.2.2.2.2.2.2.2.2.2.2.2.2.1]; dsimp only; omega
  | ⟨1, _⟩ =>
    show win0_10.index _ 1 * 256 ≤ (i 1).val ∧ (i 1).val < win0_10.index _ 1 * 256 + 256
    rw [(idx_facts _).2.2.2.2.2.2.2.2.2.2.2.2.2.2.2.2.2.2.2.2.2]; dsimp only; omega

/-- The result array after the run is the cell. -/
theorem final (c : Dev nD) : (dats m 0 c).arrAt 10 cfg0.N = cell m c :=
  (dats m 0 c).arrAt_eq_of_cover 10 (cell m c) (fun t _ => flushed_eq m c t) cover10

/-! ## The run, read -/

theorem run : θ_run defs (onTc (τ := τ) (main (F := Ideal))) ⟨m, fun _ => 0, ρ⟩ (fun r => ∀ c : Dev nD,
      r.2.mem ((c.tc : Thread nD τ).loc main_v23) = cell m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h c).1 10).trans (final m c),
      ((h c).2 main_arg0 (Pipeline.mem_restRefs_of main_arg0 (by decide) (by decide))).trans (V_main_arg0 m c),
      ((h c).1 5).trans (((dats m 0 c).arrAt_in 5 rfl _).trans ((A_eq m c 5).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) (run_main m ρ)

end Cert.KernelIdeal.Hand

end
-- ==== Proof.BEntry.lean ====
/-
  What the region finds on entry, and the frame claim read off a frame run.

  Before the one region the program runs 23 host operations: six reshapes of bias vectors to rows,
  the two one-row products h·Uzᵀ and h·Urᵀ with their bias sums, the candidate's bias sum, and five
  changes of float format of x and of four weight matrices.  None of them writes an argument
  array, so every argument is found as launched.  A window's block at a grid point is the
  rectangle of its array at the point's block index; an input window's current staging buffer
  holds that block whenever the body runs, whether the pipeline fetched it at this point or
  at an earlier one with the same block index.
-/
import proofs.«151567_j5050881540410_2_alg».proof.Proof.Gen.Kernel.Launch
import proofs.«151567_j5050881540410_2_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The program up to the region -/

/-- The buffers of core c when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, for any proof data whose
    array is the entry contents and whose body leaves the block in place. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- Every argument array ends as launched: the state row h, which two windows stage, by what the
    library computes for an input window's array; the others, which no window stages, because the
    region leaves every other unscoped buffer as it found it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (V_main_arg0 m c),
      ((h c).1 5).trans (((dats 0 c).arrAt_in 5 rfl _).trans ((hA c 5).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

end Cert.Kernel.Hand

end
-- ==== Proof.BCond.lean ====
/-
  The one branch of the kernel's body: it tests the second grid coordinate (the column-tile
  counter j) against zero.  Over the 8 × 8 grid, walked row-major, the point number t has
  j = t mod 8, so the branch is taken exactly at the points t ≡ 0 (mod 8): the first point of
  each row tile, where the reset gate of the whole row tile is computed and kept.
-/
import proofs.«151567_j5050881540410_2_alg».proof.Proof.Gen.Kernel.Launch

noncomputable section

namespace Cert.Kernel.Hand

open Idealize.ShloMosaic Cert.Kernel Cert.Kernel.Gen

/-- The branch condition as the body computes it from the grid coordinates. -/
abbrev cond0 (i : grid0.Coords) : Prop :=
  (Scalar.cmpi .ne (Scalar.extui (Scalar.cmpi .eq (BitVec.ofNat 32 (i 1).val) 0#32)) 0#32) = 1#1

/-- It holds exactly at the first point of each row tile. -/
theorem hcond0 : ∀ t : Fin cfg0.N, cond0 (grid0.coords t) ↔ t.val % 8 = 0 :=
  (by decide +kernel : ∀ t : Fin grid0.N, cond0 (grid0.coords t) ↔ t.val % 8 = 0)

end Cert.Kernel.Hand

end
-- ==== Proof.BRunA.lean ====
/-
  The body of the kernel at the first column tile of a row tile (the column-tile counter j is 0, the body's one
  branch taken).  There the body computes the reset gate r = σ(x·Wrᵀ + b_r) of the WHOLE 512 × 2048 row tile and
  keeps it in the block it carries from one column tile to the next; it then reads that block back and computes
  the output tile (1 − z)·h + z·ĥ, where ĥ = tanh(x·Whᵀ + (r ⊙ h)·Uhᵀ + b_h) uses the gate just kept.

  This module runs the body once in that case, on whole buffers holding named contents, and records what its
  two stores leave: one piece over the whole kept block and one piece over the whole output tile, each a named
  pure function (the skeleton's payloads) of the input blocks.  The stores are shown to cover their blocks, and
  the pieces are given in closed form.
-/
import proofs.«151567_j5050881540410_2_alg».proof.Proof.BCond
import proofs.«151567_j5050881540410_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Both offsets of a whole-block access are zero. -/
theorem hz : (![0, 0] : Fin 2 → Nat) = fun _ => 0 := funext fun a => by fin_cases a <;> rfl

set_option maxHeartbeats 4000000 in
/-- THE FIRST COLUMN TILE OF A ROW TILE (j = 0, the branch taken). On whole buffers — the ten inputs at their
    contents `x0 … x9`, the output tile and the kept reset gate at anything — the body reads every input, computes
    the reset gate of the whole row tile, σ(x·Wrᵀ + b_r), and keeps it (one store over the whole 512 × 2048 block),
    reads it back, and stores the output tile (one store over the whole 512 × 256 block). It ends holding the
    inputs as they were, the output tile with the pieces `L10` written and the kept block with the pieces `LS`
    written; the two piece lists are what the run leaves behind, read off when the buffers are handed on. -/
noncomputable def kernelRunA (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) :
    Σ' (L10 : List (View.Piece (Elt F) S512x256 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; iexact HS

/-- In the case j = 0 the one store into the output tile covers it. -/
theorem coverA_out (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) (y : S512x256.Idx) :
    ∃ pc ∈ (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).1 S512x256.size (by sl_kernel_rfl) y

/-- In the case j = 0 the one store into the kept block covers it. -/
theorem coverA_scr (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) (y : S512x2048.Idx) :
    ∃ pc ∈ (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).2.1, y ∈ pc.1.set :=
  View.cover_of_tiledL (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).2.1 S512x2048.size (by sl_kernel_rfl) y

/-- What the case j = 0 keeps: ONE piece, the whole 512 × 2048 block, carrying the reset gate of the row tile
    as a function of the x tile `x0`, the whole of Wr `x2` and the reset bias row `x8`. -/
theorem runA_scr_eq (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) :
    (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).2.1
      = [⟨Rect.unit ![0, 0] S512x2048.size inb_S512x2048_S512x2048_0_0, k0_pay3 x0 x2 x8⟩] := by
  unfold kernelRunA
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x2048) hz, View.ld_unit_zero (S := S256x2048) hz, View.ld_unit_zero (S := S2048x2048) hz, View.ld_unit_zero (S := S1x2048) hz, View.ld_unit_zero (S := S1x256) hz]

/-- What the case j = 0 leaves in the output tile: ONE piece, the whole 512 × 256 block, carrying
    (1 − z)·h + z·ĥ with the candidate ĥ computed from the reset gate JUST KEPT (read back from the kept block). -/
theorem runA_out_eq (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) :
    (kernelRunA c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9).1
      = [⟨Rect.unit ![0, 0] S512x256.size inb_S512x256_S512x256_0_0, k0_pay1 (k0_pay4 x0 x1 x7) (k0_pay5 x0 x5 (k0_pay3 x0 x2 x8) x3 x4 x9) x6 (k0_pay6 x0 x1 x7)⟩] := by
  unfold kernelRunA
  dsimp only
  sl_unfold_words
  rw [View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x2048) hz, View.ld_unit_zero (S := S256x2048) hz, View.ld_unit_zero (S := S2048x2048) hz, View.ld_unit_zero (S := S1x2048) hz, View.ld_unit_zero (S := S1x256) hz]

end Cert.Kernel.Hand

end
-- ==== Proof.BRunB.lean ====
/-
  The body of the kernel at a later column tile of a row tile (the column-tile counter j is not 0, the body's
  one branch not taken).  There the body stores nothing into the block it carries from one column tile to the
  next: it finds in it the reset gate r of the whole row tile, kept at the row tile's first column tile, reads
  it, and computes the output tile (1 − z)·h + z·ĥ with ĥ = tanh(x·Whᵀ + (r ⊙ h)·Uhᵀ + b_h).

  This module runs the body once in that case, on whole buffers holding named contents — the kept block at
  contents `xs`, handed back untouched — and records what its one store leaves: one piece over the whole output
  tile, a named pure function (the skeleton's payloads) of the input blocks and of `xs`.  The store is shown to
  cover the tile, and the piece is given in closed form.
-/
import proofs.«151567_j5050881540410_2_alg».proof.Proof.BRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A LATER COLUMN TILE OF A ROW TILE (j ≠ 0, the branch not taken). On whole buffers — the ten inputs at their
    contents `x0 … x9`, the output tile at anything, and the kept block at the contents `xs` the earlier column
    tiles of this row tile left — the body reads every input and the kept block, stores nothing into the kept
    block, and stores the output tile (one store over the whole 512 × 256 block). It ends holding the inputs and
    the kept block as they were and the output tile with the pieces `L10` written. -/
noncomputable def kernelRunB (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : ¬cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) (xs : Vec F S512x2048 .f32) :
    { L10 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xs) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    iexists _; isplitr; · ipureintro; exact harg13.read_unread _
    iexact HS

/-- In the case j ≠ 0 the one store into the output tile covers it. -/
theorem coverB_out (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : ¬cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) (xs : Vec F S512x2048 .f32) (y : S512x256.Idx) :
    ∃ pc ∈ (kernelRunB c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9 xs).1, y ∈ pc.1.set :=
  View.cover_of_tiledL (kernelRunB c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9 xs).1 S512x256.size (by sl_kernel_rfl) y

/-- What the case j ≠ 0 leaves in the output tile: ONE piece, the whole 512 × 256 block, carrying
    (1 − z)·h + z·ĥ with the candidate ĥ computed from the reset gate `xs` found in the kept block. -/
theorem runB_out_eq (c : Dev nD) (i : grid0.Coords) (arg2 : Memref sig .tc .vmem S512x2048 .bf16) (harg2 : arg2.IsWhole) (arg3 : Memref sig .tc .vmem S256x2048 .bf16) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x2048 .f32) (harg10 : arg10.IsWhole) (arg11 : Memref sig .tc .vmem S1x256 .f32) (harg11 : arg11.IsWhole) (arg12 : Memref sig .tc .vmem S512x256 .f32) (harg12 : arg12.IsWhole) (arg13 : Memref sig .tc .vmem S512x2048 .f32) (harg13 : arg13.IsWhole) (hc : ¬cond0 i)
    (x0 : Vec F S512x2048 .bf16) (x1 : Vec F S256x2048 .bf16) (x2 : Vec F S2048x2048 .bf16) (x3 x4 : Vec F S256x2048 .bf16) (x5 : Vec F S1x2048 .f32) (x6 x7 : Vec F S1x256 .f32) (x8 : Vec F S1x2048 .f32) (x9 : Vec F S1x256 .f32) (xs : Vec F S512x2048 .f32) :
    (kernelRunB c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 x9 xs).1
      = [⟨Rect.unit ![0, 0] S512x256.size inb_S512x256_S512x256_0_0, k0_pay1 (k0_pay4 x0 x1 x7) (k0_pay5 x0 x5 xs x3 x4 x9) x6 (k0_pay6 x0 x1 x7)⟩] := by
  unfold kernelRunB
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S512x2048) hz, View.ld_unit_zero (S := S256x2048) hz, View.ld_unit_zero (S := S2048x2048) hz, View.ld_unit_zero (S := S1x2048) hz, View.ld_unit_zero (S := S1x256) hz]

end Cert.Kernel.Hand

end
-- ==== Proof.BKSplit.lean ====
/-
  The split of the arrays of this kernel's one pipeline among its windows.

  Windows 5 and 6 both read the state row `main_arg1` (the whole row, and its column tile). The other nine windows
  each have an array of their own. The buffers behind the arrays are ten, each held whole at the full share; the
  pipeline's proof data hold ELEVEN windowed arrays, each at the window's share. The full share of the state row is
  cut into its left and right halves, one for each of the two windows on it; every other window takes the full share
  of its own array.
-/
import proofs.«151567_j5050881540410_2_alg».proof.Proof.Gen.Kernel.Launch
import proofs.«151567_j5050881540410_2_alg».proof.Proof.LibSharedFrame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

set_option Elab.async false

variable {F : FTy → Type} [FloatOps F]

local notation "𝕄" => MT nD τ sig Unit (Elt F) ℕ (UR sig nD τ) ℕ

/-- An input window's share is the proof data's own. -/
theorem share_in {c : Dev nD} (dat : Pipeline.Dat τ (Elt F) Unit ℕ (UR sig nD τ) ℕ cfg0 c) (w : Fin cfg0.W)
    (h : (cfg0.win w).isOut = false) : dat.share w = dat.q w := by
  unfold Pipeline.Dat.share
  exact if_neg (by rw [h]; exact Bool.false_ne_true)

/-- An output window's share is the full share. -/
theorem share_out {c : Dev nD} (dat : Pipeline.Dat τ (Elt F) Unit ℕ (UR sig nD τ) ℕ cfg0 c) (w : Fin cfg0.W)
    (h : (cfg0.win w).isOut = true) : dat.share w = fullShare := by
  unfold Pipeline.Dat.share
  exact if_pos h

/-- The ten buffers behind the eleven windows' arrays, in window order (the state row once). -/
theorem arrBufs_eq (c : Dev nD) (V : (b : Ref sig .tc) → Buf (Elt F) ((c.tc : Thread nD τ).loc b)) :
    (Pipeline.arrBufs spec0 c V : sProp 𝕄)
      = iprop((((c.tc : Thread nD τ).loc main_v18) ↦{fullShare} V main_v18)
          ∗ (((c.tc : Thread nD τ).loc main_v19) ↦{fullShare} V main_v19)
          ∗ (((c.tc : Thread nD τ).loc main_v20) ↦{fullShare} V main_v20)
          ∗ (((c.tc : Thread nD τ).loc main_v21) ↦{fullShare} V main_v21)
          ∗ (((c.tc : Thread nD τ).loc main_v22) ↦{fullShare} V main_v22)
          ∗ (((c.tc : Thread nD τ).loc main_arg1) ↦{fullShare} V main_arg1)
          ∗ (((c.tc : Thread nD τ).loc main_v10) ↦{fullShare} V main_v10)
          ∗ (((c.tc : Thread nD τ).loc main_v15) ↦{fullShare} V main_v15)
          ∗ (((c.tc : Thread nD τ).loc main_v17) ↦{fullShare} V main_v17)
          ∗ (((c.tc : Thread nD τ).loc main_v23) ↦{fullShare} V main_v23)) := by
  unfold Pipeline.arrBufs
  exact bigSep_eq_bigSepL_of_eq [main_v18, main_v19, main_v20, main_v21, main_v22, main_arg1, main_v10, main_v15, main_v17, main_v23]
    (by decide) (by decide) _

/-- THE SPLIT: the buffers behind the arrays, each whole at the full share at contents `V`, yield the proof data's
    windowed arrays at the same contents, when the data hold the state row's two windows at the two halves of the full
    share (window 5 the left, window 6 the right) and every other input window at the full share. -/
theorem hsplit (c : Dev nD) (dat : Pipeline.Dat τ (Elt F) Unit ℕ (UR sig nD τ) ℕ cfg0 c)
    (V : (b : Ref sig .tc) → Buf (Elt F) ((c.tc : Thread nD τ).loc b))
    (Fn : (w : Fin cfg0.W) → Buf (Elt F) ((cfg0.win w).arr.view.loc (c.tc : Thread nD τ)))
    (hFn : ∀ w, Fn w = V (Pipeline.arrRef spec0 w))
    (hq5 : dat.q 5 = fullShare.left) (hq6 : dat.q 6 = fullShare.right)
    (hq : ∀ w, w ≠ 5 → w ≠ 6 → dat.q w = fullShare) :
    (Pipeline.arrBufs spec0 c V : sProp 𝕄) ⊢ dat.arrays Fn := by
  have hR : dat.arrays Fn
      = bigSep Finset.univ fun w : Fin 11 =>
          (((c.tc : Thread nD τ).loc (Pipeline.arrRef spec0 w)) ↦{dat.share w} V (Pipeline.arrRef spec0 w) : sProp 𝕄) := by
    unfold Pipeline.Dat.arrays
    exact bigSep_congr fun w _ => by rw [(Gen.arr_whole0 w).set_eq_univ, hFn]
  have s0 : dat.share 0 = fullShare := (share_in dat 0 rfl).trans (hq 0 (by decide) (by decide))
  have s1 : dat.share 1 = fullShare := (share_in dat 1 rfl).trans (hq 1 (by decide) (by decide))
  have s2 : dat.share 2 = fullShare := (share_in dat 2 rfl).trans (hq 2 (by decide) (by decide))
  have s3 : dat.share 3 = fullShare := (share_in dat 3 rfl).trans (hq 3 (by decide) (by decide))
  have s4 : dat.share 4 = fullShare := (share_in dat 4 rfl).trans (hq 4 (by decide) (by decide))
  have s5 : dat.share 5 = fullShare.left := (share_in dat 5 rfl).trans hq5
  have s6 : dat.share 6 = fullShare.right := (share_in dat 6 rfl).trans hq6
  have s7 : dat.share 7 = fullShare := (share_in dat 7 rfl).trans (hq 7 (by decide) (by decide))
  have s8 : dat.share 8 = fullShare := (share_in dat 8 rfl).trans (hq 8 (by decide) (by decide))
  have s9 : dat.share 9 = fullShare := (share_in dat 9 rfl).trans (hq 9 (by decide) (by decide))
  have s10 : dat.share 10 = fullShare := share_out dat 10 rfl
  rw [hR, Gen.bigSep_W0, s0, s1, s2, s3, s4, s5, s6, s7, s8, s9, s10, arrBufs_eq]
  iintro ⟨H0, H1, H2, H3, H4, Hh, H7, H8, H9, H10⟩
  ihave Hh := (pointsTo_share (PosShare.mem_left_op_right fullShare)).1 $$ Hh
  icases Hh with ⟨H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The split in the form the launch asks for: at the region's entry the windowed arrays hold the data's entry contents
    `A`, which are `V` at each window's array (`hA`). -/
theorem hsplit_entry (c : Dev nD) (dat : Pipeline.Dat τ (Elt F) Unit ℕ (UR sig nD τ) ℕ cfg0 c)
    (V : (b : Ref sig .tc) → Buf (Elt F) ((c.tc : Thread nD τ).loc b))
    (hA : ∀ w, dat.A w = V (Pipeline.arrRef spec0 w))
    (hq5 : dat.q 5 = fullShare.left) (hq6 : dat.q 6 = fullShare.right)
    (hq : ∀ w, w ≠ 5 → w ≠ 6 → dat.q w = fullShare) :
    (Pipeline.arrBufs spec0 c V : sProp 𝕄) ⊢ dat.arrays (dat.arrAt · 0) :=
  hsplit c dat V _ (fun w => hA w) hq5 hq6 hq

/-- The frame run for windows sharing an array, at this program's pipeline: the layout facts are the generated ones;
    what remains is the body obligation, the data's debts, @main up to the region, the split above at every core, and
    the invariant's entry and exit. -/
example (dats : (p : Fin 1) → (c : Dev nD) → Pipeline.Dat τ (Elt F) Unit ℕ (UR sig nD τ) ℕ (cfgs p) c)
    (𝒱₀ : Variants) (m : (ℓ : Loc nD τ sig) → Buf (Elt F) ℓ) (g : Dev nD → PrngReg)
    (hbody : ∀ c, Pipeline.BodyObligationLoose (dats 0 c) (defs₀ (F := F)) 𝒱₀ () Set.univ)
    (howed : ∀ c t, (dats 0 c).owed t = 0)
    (V : (c : Dev nD) → (b : Ref sig .tc) → Buf (Elt F) ((c.tc : Thread nD τ).loc b))
    (hmain : Pipeline.HMain (Ix := Unit) (Name := ℕ) (U := UR sig nD τ) (Lvl := ℕ) cfgs 0 (defs₀ (F := F)) 𝒱₀ m main V)
    (hsplit' : ∀ c, (Pipeline.arrBufs (cfgs 0).spec c (V c) : sProp 𝕄) ⊢ (dats 0 c).arrays ((dats 0 c).arrAt · 0))
    (hin : ∀ c, Pipeline.ΦA (cfgs 0).spec c ⊢ (dats 0 c).Φ 0)
    (hout : ∀ c, (dats 0 c).Φ (Fin.last (cfgs 0).N) ⊢ Pipeline.ΦA (cfgs 0).spec c) :
    θ_run (Pipeline.defs (fun q => Pipeline.Cfg.toPCfg (Val := Elt F) (cfgs q)) defs₀) (onTc main) (s₀ m g)
      (Pipeline.FramePost cfgs dats 0 V) :=
  Pipeline.θ_run_frame_track_shared cfgs dats 0 Gen.cellOf_inj Gen.winFacts₀0 Gen.block_pos0 Gen.arr_whole0 Gen.stage_whole0
    defs₀ 𝒱₀ m g main hbody howed V hmain hsplit' hin hout

end Cert.Kernel.Hand

end
-- ==== Proof.BCellFrame.lean ====
/-
  The frame of the kernel: every weakly fair execution terminates, nothing faults, and the
  argument arrays end as launched.

  The grid is walked row-major: point t has row tile i = t / 8 and column tile j = t mod 8.  At a
  point with j = 0 the body computes the reset gate r of the whole row tile and stores it in the
  scratch buffer; at every point it reads r back from the scratch, forms the update gate and the
  candidate of the column tile, and stores the output tile.  So what the scratch holds after point
  t is what the last point with j = 0 stored, and the region's invariant carries exactly that: before
  the first point the scratch holds anything; before a later point it holds what the point before
  left.  Each input window's staging buffer holds its block whenever the body runs.  The state row
  h is handed to the kernel through two windows (the whole row, and the column tile): the full
  ownership of its array is dealt in two halves, one to each, which suffices because both only read.
-/
import proofs.«151567_j5050881540410_2_alg».proof.Proof.BEntry
import proofs.«151567_j5050881540410_2_alg».proof.Proof.BRunB
import proofs.«151567_j5050881540410_2_alg».proof.Proof.LibSharedFrame
import proofs.«151567_j5050881540410_2_alg».proof.Proof.BKSplit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's buffers at a point -/

/-- One staging buffer of the output window, through which its contents are stated. -/
abbrev VO : View sig .tc .vmem S512x256 .f32 := (Memref.whole cc0_stg10_0 : Memref sig .tc .vmem S512x256 .f32).view
/-- The scratch buffer that keeps the reset gate of the current row tile, and its view. -/
abbrev scM : Memref sig .tc .vmem S512x2048 .f32 := Memref.whole cc0_scratch0
abbrev VS : View sig .tc .vmem S512x2048 .f32 := scM.view
/-- Each window's current staging buffer at point t. -/
abbrev ms0 (t : Fin cfg0.N) : Memref sig .tc .vmem S512x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2048 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x256 .f32 := win0_10.stage (cfg0.slots t 10)
abbrev hs10 (t : Fin cfg0.N) : (ms10 t).IsWhole := hstage0_10 ((cfg0.slots t 10).cast nbuf0_10)

/-- The class invariant with the scratch as a buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What one point leaves -/

/-- The body's run at a point with j = 0, on the point's buffers and blocks. -/
def runA (c : Dev nD) (t : Fin cfg0.N) (hc : cond0 (grid0.coords t)) :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t)
/-- The body's run at a point with j ≠ 0, the scratch at xs. -/
def runB (c : Dev nD) (t : Fin cfg0.N) (hc : ¬cond0 (grid0.coords t)) (xs : Vec F S512x2048 .f32) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) xs

/-- What a point with j = 0 leaves in the output tile's buffer and in the scratch. -/
def outA (c : Dev nD) (t : Fin cfg0.N) (hc : cond0 (grid0.coords t)) : Vec F S512x256 .f32 :=
  VO.read (Elt F) (VO.writes (Elt F) VO.junk (runA m c t hc).1)
def scrA (c : Dev nD) (t : Fin cfg0.N) (hc : cond0 (grid0.coords t)) : Vec F S512x2048 .f32 :=
  VS.read (Elt F) (VS.writes (Elt F) VS.junk (runA m c t hc).2.1)
/-- What a point with j ≠ 0 leaves in the output tile's buffer, the scratch at xs. -/
def outB (c : Dev nD) (t : Fin cfg0.N) (hc : ¬cond0 (grid0.coords t)) (xs : Vec F S512x2048 .f32) : Vec F S512x256 .f32 :=
  VO.read (Elt F) (VO.writes (Elt F) VO.junk (runB m c t hc xs).1)

/-- The output tile's buffer and the scratch after the body at position n, by recursion on the
    position: a point with j = 0 stores both; a later point of the row tile stores the output tile
    from the scratch the point before left, and leaves the scratch as it was. -/
def outsAt (c : Dev nD) : (n : ℕ) → n < cfg0.N → Vec F S512x256 .f32 × Vec F S512x2048 .f32
  | 0, hn => (outA m c ⟨0, hn⟩ ((hcond0 ⟨0, hn⟩).mpr (Nat.zero_mod _)), scrA m c ⟨0, hn⟩ ((hcond0 ⟨0, hn⟩).mpr (Nat.zero_mod _)))
  | n + 1, hn =>
    if h0 : (n + 1) % 8 = 0 then
      (outA m c ⟨n + 1, hn⟩ ((hcond0 ⟨n + 1, hn⟩).mpr h0), scrA m c ⟨n + 1, hn⟩ ((hcond0 ⟨n + 1, hn⟩).mpr h0))
    else
      (outB m c ⟨n + 1, hn⟩ (fun h => h0 ((hcond0 ⟨n + 1, hn⟩).mp h)) (outsAt c n (Nat.lt_of_succ_lt hn)).2,
        (outsAt c n (Nat.lt_of_succ_lt hn)).2)

theorem outsAt_A (c : Dev nD) (t : Fin cfg0.N) (h0 : t.val % 8 = 0) :
    outsAt m c t.val t.isLt = (outA m c t ((hcond0 t).mpr h0), scrA m c t ((hcond0 t).mpr h0)) := by
  obtain ⟨n, hn⟩ := t
  cases n with
  | zero => exact rfl
  | succ n => exact (dif_pos h0).trans rfl

theorem outsAt_B (c : Dev nD) (t : Fin cfg0.N) (h0 : ¬t.val % 8 = 0) :
    outsAt m c t.val t.isLt
      = (outB m c t (fun h => h0 ((hcond0 t).mp h)) (outsAt m c (t.val - 1) (Nat.lt_of_le_of_lt (Nat.sub_le _ _) t.isLt)).2,
          (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's invariant -/

/-- Before the first point the class invariant (the scratch at anything); before a later point the
    scratch at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input's buffer at its block, the
    output's at what the point stored; the invariant above; nothing owed; the state row's array
    held in two halves by its two windows, every other input's at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
  Φ t := PhiS m c t.val (Nat.le_of_lt_succ t.isLt)
  q w := match w with
    | ⟨0, _⟩ => fullShare
    | ⟨1, _⟩ => fullShare
    | ⟨2, _⟩ => fullShare
    | ⟨3, _⟩ => fullShare
    | ⟨4, _⟩ => fullShare
    | ⟨5, _⟩ => fullShare.left
    | ⟨6, _⟩ => fullShare.right
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (outsAt m c t.val t.isLt).1 := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d
theorem before_4 (c : Dev nD) (t : Fin cfg0.N) (d) : (dats m 0 c).before 4 t d = iblk m c 4 t :=
  before_in_4 m (dats m 0 c) (A_eq m c 4) (after_4 m c) t d
theorem before_5 (c : Dev nD) (t : Fin cfg0.N) (d) : (dats m 0 c).before 5 t d = iblk m c 5 t :=
  before_in_5 m (dats m 0 c) (A_eq m c 5) (after_5 m c) t d
theorem before_6 (c : Dev nD) (t : Fin cfg0.N) (d) : (dats m 0 c).before 6 t d = iblk m c 6 t :=
  before_in_6 m (dats m 0 c) (A_eq m c 6) (after_6 m c) t d
theorem before_7 (c : Dev nD) (t : Fin cfg0.N) (d) : (dats m 0 c).before 7 t d = iblk m c 7 t :=
  before_in_7 m (dats m 0 c) (A_eq m c 7) (after_7 m c) t d
theorem before_8 (c : Dev nD) (t : Fin cfg0.N) (d) : (dats m 0 c).before 8 t d = iblk m c 8 t :=
  before_in_8 m (dats m 0 c) (A_eq m c 8) (after_8 m c) t d
theorem before_9 (c : Dev nD) (t : Fin cfg0.N) (d) : (dats m 0 c).before 9 t d = iblk m c 9 t :=
  before_in_9 m (dats m 0 c) (A_eq m c 9) (after_9 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
/-- The body at any point: the inputs' buffers hold their blocks; the point number says which case
    it is; the invariant hands the body the scratch (at anything before the first point, else at
    what the point before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · -- a point with j = 0
    rw [show (dats m 0 c).leavesExact 0 t = owns (c : Thread nD τ) (ms0 t) fullShare (iblk m c 0 t) from by
      unfold Dat.leavesExact; rw [after_0]]
    rw [show (dats m 0 c).leavesExact 1 t = owns (c : Thread nD τ) (ms1 t) fullShare (iblk m c 1 t) from by
      unfold Dat.leavesExact; rw [after_1]]
    rw [show (dats m 0 c).leavesExact 2 t = owns (c : Thread nD τ) (ms2 t) fullShare (iblk m c 2 t) from by
      unfold Dat.leavesExact; rw [after_2]]
    rw [show (dats m 0 c).leavesExact 3 t = owns (c : Thread nD τ) (ms3 t) fullShare (iblk m c 3 t) from by
      unfold Dat.leavesExact; rw [after_3]]
    rw [show (dats m 0 c).leavesExact 4 t = owns (c : Thread nD τ) (ms4 t) fullShare (iblk m c 4 t) from by
      unfold Dat.leavesExact; rw [after_4]]
    rw [show (dats m 0 c).leavesExact 5 t = owns (c : Thread nD τ) (ms5 t) fullShare (iblk m c 5 t) from by
      unfold Dat.leavesExact; rw [after_5]]
    rw [show (dats m 0 c).leavesExact 6 t = owns (c : Thread nD τ) (ms6 t) fullShare (iblk m c 6 t) from by
      unfold Dat.leavesExact; rw [after_6]]
    rw [show (dats m 0 c).leavesExact 7 t = owns (c : Thread nD τ) (ms7 t) fullShare (iblk m c 7 t) from by
      unfold Dat.leavesExact; rw [after_7]]
    rw [show (dats m 0 c).leavesExact 8 t = owns (c : Thread nD τ) (ms8 t) fullShare (iblk m c 8 t) from by
      unfold Dat.leavesExact; rw [after_8]]
    rw [show (dats m 0 c).leavesExact 9 t = owns (c : Thread nD τ) (ms9 t) fullShare (iblk m c 9 t) from by
      unfold Dat.leavesExact; rw [after_9]]
    rw [show (dats m 0 c).leavesExact 10 t = owns (c : Thread nD τ) (ms10 t) fullShare ((outsAt m c t.val t.isLt).1) from by
      unfold Dat.leavesExact; rw [after_10]]
    rw [outsAt_A m c t h0]
    unfold outA scrA; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t ((hcond0 t).mpr h0)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, ⟨%e10, H10⟩, ⟨%es, HS⟩⟩
      isplitl [HS Hg]
      · isplitl [HS]
        · unfold owns; iexists _; isplitr
          swap; · iexact HS
          ipureintro; exact View.read_writes_of_cover _ _ _ _ _ (coverA_scr c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverA_out c _ _ _ _ _ _ _ _ _ _ _ _ _ _ _ _ _ _ _ _ _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t ((hcond0 t).mpr h0)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexists _; iexact HS
      iintro ⟨H0, H1, H2, H3, H4, H5, H6, H7, H8, H9, ⟨%e10, H10⟩, ⟨%es, HS⟩⟩
      isplitl [HS Hg]
      · isplitl [HS]
        · unfold owns; iexists _; isplitr
          swap; · iexact HS
          ipureintro; exact View.read_writes_of_cover _ _ _ _ _ (coverA_scr c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverA_out c _ _ _ _ _ _ _ _ _ _ _ _ _ _ _ _ _ _ _ _ _ _ _ _ _ _ _ _ _ _ _ _ _ _ _ _)
  · -- a later point of the row tile
    rw [show (dats m 0 c).leavesExact 0 t = owns (c : Thread nD τ) (ms0 t) fullShare (iblk m c 0 t) from by
      unfold Dat.leavesExact; rw [after_0]]
    rw [show (dats m 0 c).leavesExact 1 t = owns (c : Thread nD τ) (ms1 t) fullShare (iblk m c 1 t) from by
      unfold Dat.leavesExact; rw [after_1]]
    rw [show (dats m 0 c).leavesExact 2 t = owns (c : Thread nD τ) (ms2 t) fullShare (iblk m c 2 t) from by
      unfold Dat.leavesExact; rw [after_2]]
    rw [show (dats m 0 c).leavesExact 3 t = owns (c : Thread nD τ) (ms3 t) fullShare (iblk m c 3 t) from by
      unfold Dat.leavesExact; rw [after_3]]
    rw [show (dats m 0 c).leavesExact 4 t = owns (c : Thread nD τ) (ms4 t) fullShare (iblk m c 4 t) from by
      unfold Dat.leavesExact; rw [after_4]]
    rw [show (dats m 0 c).leavesExact 5 t = owns (c : Thread nD τ) (ms5 t) fullShare (iblk m c 5 t) from by
      unfold Dat.leavesExact; rw [after_5]]
    rw [show (dats m 0 c).leavesExact 6 t = owns (c : Thread nD τ) (ms6 t) fullShare (iblk m c 6 t) from by
      unfold Dat.leavesExact; rw [after_6]]
    rw [show (dats m 0 c).leavesExact 7 t = owns (c : Thread nD τ) (ms7 t) fullShare (iblk m c 7 t) from by
      unfold Dat.leavesExact; rw [after_7]]
    rw [show (dats m 0 c).leavesExact 8 t = owns (c : Thread nD τ) (ms8 t) fullShare (iblk m c 8 t) from by
      unfold Dat.leavesExact; rw [after_8]]
    rw [show (dats m 0 c).leavesExact 9 t = owns (c : Thread nD τ) (ms9 t) fullShare (iblk m c 9 t) from by
      unfold Dat.leavesExact; rw [after_9]]
    rw [show (dats m 0 c).leavesExact 10 t = owns (c : Thread nD τ) (ms10 t) fullShare ((outsAt m c t.val t.isLt).1) from by
      unfold Dat.leavesExact; rw [after_10]]
    rw [outsAt_B m c t h0]
    unfold outB; (try dsimp only)
    have hz : t.val ≠ 0 := fun h => h0 (by rw [h])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB m c t (fun h => h0 ((hcond0 t).mp h)) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverB_out c _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run and the frame -/

set_option backward.isDefEq.respectTransparency.types false in
/-- Every weakly fair execution of the program terminates, with every window's array at what the
    library computes from the proof data and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (hbody := fun c => (body_obligation m c).loose) (howed := fun _ _ => rfl)
    (V := V m) (hmain := hmain m Variants.none)
    (hsplit := fun c => hsplit_entry c (dats m 0 c) (V m c) (A_eq m c) rfl rfl
      (fun w h5 h6 => by fin_cases w <;> first | rfl | exact absurd rfl h5 | exact absurd rfl h6))
    (hin := hin m) (hout := hout m)

/-- The frame claim at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Hand

end
-- ==== Proof.lean ====
/-
  The certificate of the fused GRU-cell kernel against its jnp reference.

  Both programs compute one GRU time step of x [4096, 2048] against the state row h [1, 2048]:
      z = σ(x·Wzᵀ + h·Uzᵀ + bwz + buz + b_z),   r = σ(x·Wrᵀ + h·Urᵀ + bwr + bur + b_r),
      ĥ = tanh(x·Whᵀ + (r ⊙ h)·Uhᵀ + bwh + buh + b_h),   out = (1 − z)·h + z·ĥ.
  The kernel first sums the state's contribution and the biases of each gate into one row on the
  host, then walks an 8 × 8 grid of row tiles and column tiles, keeping the reset gate of the
  current row tile in a scratch block; the reference adds every summand to x·Wᵀ in turn over the
  whole arrays.  On the extended reals the two differ only in the order and grouping of additions,
  which a commutative monoid does not see (the specification module proves the two arrangements
  equal); changes of float format are the identity there, and the logistic function is the same
  function whether written as one operation or as 1 / (1 + e^(−v)).

  The frames: each program terminates on every weakly fair execution, faults nowhere, and leaves
  its arguments as launched.  For the kernel (at the word level and idealized alike) this is the
  frame run over the grid with the scratch block carried from point to point, the state row's
  array shared in two halves by the two windows that read it; for the reference it is its run
  with the result dropped.  The idealization rewrote no operation, so it preserves the kernel
  trivially.
-/
import proofs.«151567_j5050881540410_2_alg».proof.Defs
import proofs.«151567_j5050881540410_2_alg».proof.Proof.Gen.Kernel
import proofs.«151567_j5050881540410_2_alg».proof.Proof.Gen.Kernel.Skeleton
import proofs.«151567_j5050881540410_2_alg».proof.Proof.Gen.Kernel.Launch
import proofs.«151567_j5050881540410_2_alg».proof.Proof.Gen.Kernel.Points
import proofs.«151567_j5050881540410_2_alg».proof.Proof.Gen.KernelIdeal
import proofs.«151567_j5050881540410_2_alg».proof.Proof.Gen.KernelIdeal.Skeleton
import proofs.«151567_j5050881540410_2_alg».proof.Proof.Gen.KernelIdeal.Launch
import proofs.«151567_j5050881540410_2_alg».proof.Proof.Gen.KernelIdeal.Points
import proofs.«151567_j5050881540410_2_alg».proof.Proof.Gen.ReferenceIdeal
import proofs.«151567_j5050881540410_2_alg».proof.Proof.Gen.Pre_finite_inputs
import proofs.«151567_j5050881540410_2_alg».proof.Proof.GruSpec
import proofs.«151567_j5050881540410_2_alg».proof.Proof.RefCell
import proofs.«151567_j5050881540410_2_alg».proof.Proof.CellValue
import proofs.«151567_j5050881540410_2_alg».proof.Proof.BCellFrame
import Idealize.ShloMosaic.Adequacy
import Idealize.ShloMosaic.Init

noncomputable section

namespace Cert.Proof

open Idealize.ShloMosaic Idealize.SL.Sem

namespace GruClaims

/-- The word-level kernel's frame. -/
theorem frame_k : Cert.frame_Kernel := fun m ρ _ => Cert.Kernel.Hand.frame (F := Bits) m ρ

/-- The idealized kernel's frame. -/
theorem frame_ki : Cert.frame_KernelIdeal := fun m ρ _ => Cert.KernelIdeal.Hand.frame (F := Ideal) m ρ

/-- The reference's frame: its run with the result dropped. -/
theorem frame_ri : Cert.frame_ReferenceIdeal := Cert.ReferenceIdeal.RefValue.frame_ri

/-- The idealization rewrote no operation. -/
theorem preserves : Cert.preserves_Kernel_KernelIdeal := trivial

/-- From memories agreeing on the arguments the kernel's result array ends at the cell in the
    arrangement with the gates' rows summed first, the reference's at the cell with every summand
    added in turn: one function of the arguments. -/
theorem algebraic : Cert.algebraic_KernelIdeal_ReferenceIdeal := by
  intro m ρ m' ρ' _ hagree
  refine ⟨fun c => Cert.GruSpec.cellR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_,
    Cert.ReferenceIdeal.RefValue.ref_run_agree m m' ρ' hagree⟩
  exact (θ_run (Cert.KernelIdeal.defs (F := Ideal)) _ _).mono
    (fun _ h c => ⟨(h c).1.trans (Cert.GruSpec.cellR_eq_cellK ..).symm, (h c).2⟩)
    (Cert.KernelIdeal.Hand.run m ρ)

end GruClaims

theorem claim : Cert.Claim := ⟨Cert.Kernel.Gen.facts, Cert.KernelIdeal.Gen.facts, Cert.ReferenceIdeal.Gen.facts, Cert.Pre_finite_inputs.Gen.facts,
  GruClaims.frame_k, GruClaims.frame_ki, GruClaims.frame_ri, GruClaims.preserves, GruClaims.algebraic⟩

end Cert.Proof

end
